-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16x256 : Shape := ⟨3, ![4096, 16, 256]⟩
abbrev S4096 : Shape := ⟨1, ![4096]⟩
abbrev S260x512 : Shape := ⟨2, ![260, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S_ : Shape := ⟨0, ![]⟩

class Facts : Prop where
  bcast_S_S4096x16x256 : S_.BroadcastsInDim S4096x16x256 (![] : Fin 0 → Fin S4096x16x256.rank)
  reducesTo_S4096x16x256_S_d0_1_2 : S4096x16x256.ReducesTo [0, 1, 2] S_
  h_S_ : 0 < S_.numel
  bcast_S_S260x512 : S_.BroadcastsInDim S260x512 (![] : Fin 0 → Fin S260x512.rank)
  reducesTo_S260x512_S_d0_1 : S260x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S512 .f32) (main_arg9 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg5 : FVec F S512 .f32) (main_arg6 : FVec F S512x256 .f32) (main_arg7 : FVec F S256 .f32) (main_arg8 : FVec F S512 .f32) (main_arg9 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg6
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S4096x16x256 .f32) (main_arg1 : IVec S4096 32) (main_arg2 : FVec F S260x512 .f32) (main_arg3 : FVec F S512 .f32) (main_arg4 : FVec F S512x512 .f32) (main_arg5 : FVec F S512 .f32) (main_arg6 : FVec F S512x256 .f32) (main_arg7 : FVec F S256 .f32) (main_arg8 : FVec F S512 .f32) (main_arg9 : FVec F S512 .f32) : IVec S_ 1 :=
  let main_v0 : FVec F S4096x16x256 .f32 := Host.absf main_arg0
  let main_cst : FVec F S_ .f32 := constant S_ .f32 0x7F800000#32
  let main_v1 : FVec F S4096x16x256 .f32 := broadcastInDim S4096x16x256 ![] bcast_S_S4096x16x256 main_cst
  let main_v2 : IVec S4096x16x256 1 := cmpf .olt main_v0 main_v1
  let main_c : IVec S_ 1 := constantI S_ 1 1#1
  let main_v3 : IVec S_ 1 := (fun x v => Host.reduce IntOp.andi x v reducesTo_S4096x16x256_S_d0_1_2 h_S_) main_v2 main_c
  let main_v4 : FVec F S260x512 .f32 := Host.absf main_arg2
  let main_cst_0 : FVec F S_ .f32 := constant S_ .f32 0x7F800000#32
  let main_v5 : FVec F S260x512 .f32 := broadcastInDim S260x512 ![] bcast_S_S260x512 main_cst_0
  let main_v6 : IVec S260x512 1 := cmpf .olt main_v4 main_v5
  let main_c_1 : IVec S_ 1 := constantI S_ 1 1#1
  let main_v7 : IVec S_ 1 := (fun x v => Host.reduce IntOp.andi x v reducesTo_S260x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_arg8 main_arg9 main_v13 main_v16
-- ==== Kernel.lean ====
abbrev S4096x16x256 : Shape := ⟨3, ![4096, 16, 256]⟩
abbrev S4096 : Shape := ⟨1, ![4096]⟩
abbrev S260x512 : Shape := ⟨2, ![260, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S4096x1 : Shape := ⟨2, ![4096, 1]⟩
abbrev S1x64 : Shape := ⟨2, ![1, 64]⟩
abbrev S4096x64 : Shape := ⟨2, ![4096, 64]⟩
abbrev S4096x16x4 : Shape := ⟨3, ![4096, 16, 4]⟩
abbrev S4096x16x260 : Shape := ⟨3, ![4096, 16, 260]⟩
abbrev S1x512 : Shape := ⟨2, ![1, 512]⟩
abbrev S1x256 : Shape := ⟨2, ![1, 256]⟩
abbrev S256x16x260 : Shape := ⟨3, ![256, 16, 260]⟩
abbrev S256x16x256 : Shape := ⟨3, ![256, 16, 256]⟩
abbrev S4096x260 : Shape := ⟨2, ![4096, 260]⟩
abbrev S4096x512 : Shape := ⟨2, ![4096, 512]⟩
abbrev S256x16x512 : Shape := ⟨3, ![256, 16, 512]⟩
abbrev S256x512 : Shape := ⟨2, ![256, 512]⟩
abbrev S256x1 : Shape := ⟨2, ![256, 1]⟩
abbrev S256x256 : Shape := ⟨2, ![256, 256]⟩
abbrev S256x1x256 : Shape := ⟨3, ![256, 1, 256]⟩

abbrev nBuf : Space → Nat
  | .hbm => 24
  | .vmem => 12
  | .smem => 0
  | _ => 0

abbrev bufTy : (tb : Table) → Fin (tcTables nBuf tb) → BufTy
  | .hbm, ⟨0, _⟩ => ⟨S4096x16x256, .f32⟩
  | .hbm, ⟨1, _⟩ => ⟨S4096, .i32⟩
  | .hbm, ⟨2, _⟩ => ⟨S260x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S512, .f32⟩
  | .hbm, ⟨9, _⟩ => ⟨S512, .f32⟩
  | .hbm, ⟨10, _⟩ => ⟨S4096x1, .i32⟩
  | .hbm, ⟨11, _⟩ => ⟨S1x64, .i32⟩
  | .hbm, ⟨12, _⟩ => ⟨S4096x64, .i32⟩
  | .hbm, ⟨13, _⟩ => ⟨S4096x64, .i32⟩
  | .hbm, ⟨14, _⟩ => ⟨S4096x64, .i1⟩
  | .hbm, ⟨15, _⟩ => ⟨S4096x64, .f32⟩
  | .hbm, ⟨16, _⟩ => ⟨S4096x16x4, .f32⟩
  | .hbm, ⟨17, _⟩ => ⟨S4096x16x260, .f32⟩
  | .hbm, ⟨18, _⟩ => ⟨S1x512, .f32⟩
  | .hbm, ⟨19, _⟩ => ⟨S1x512, .f32⟩
  | .hbm, ⟨20, _⟩ => ⟨S1x256, .f32⟩
  | .hbm, ⟨21, _⟩ => ⟨S1x512, .f32⟩
  | .hbm, ⟨22, _⟩ => ⟨S1x512, .f32⟩
  | .hbm, ⟨23, _⟩ => ⟨S4096x16x256, .f32⟩
  | .local _ .vmem, ⟨0, _⟩ => ⟨S256x16x260, .f32⟩
  | .local _ .vmem, ⟨1, _⟩ => ⟨S256x16x260, .f32⟩
  | .local _ .vmem, ⟨2, _⟩ => ⟨S260x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S512x256, .f32⟩
  | .local _ .vmem, ⟨7, _⟩ => ⟨S1x256, .f32⟩
  | .local _ .vmem, ⟨8, _⟩ => ⟨S1x512, .f32⟩
  | .local _ .vmem, ⟨9, _⟩ => ⟨S1x512, .f32⟩
  | .local _ .vmem, ⟨10, _⟩ => ⟨S256x16x256, .f32⟩
  | .local _ .vmem, ⟨11, _⟩ => ⟨S256x16x256, .f32⟩
  | _, _ => ⟨S4096x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x16x260 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S260x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  bcast_S1x64_S4096x64_0_1 : S1x64.BroadcastsInDim S4096x64 (![0, 1] : Fin 2 → Fin S4096x64.rank)
  shapeCasts_S4096x64_S4096x16x4 : S4096x64.ShapeCasts S4096x16x4
  concatenates_S4096x16x256_S4096x16x4_S4096x16x260_d2 : Shape.Concatenates [S4096x16x256, S4096x16x4] S4096x16x260 2
  shapeCasts_S512_S1x512 : S512.ShapeCasts S1x512
  shapeCasts_S256_S1x256 : S256.ShapeCasts S1x256
  inb_S256x16x260_S256x16x260_0_0_0 : ∀ a, (![0, 0, 0] : Fin 3 → Nat) a + S256x16x260.size a ≤ S256x16x260.size a
  h_S256x16x260 : 0 < S256x16x260.numel
  shapeCasts_S256x16x260_S256x16x260 : S256x16x260.ShapeCasts S256x16x260
  shapeCasts_S256x16x260_S4096x260 : S256x16x260.ShapeCasts S4096x260
  inb_S260x512_S260x512_0_0 : ∀ a, (![0, 0] : Fin 2 → Nat) a + S260x512.size a ≤ S260x512.size a
  h_S260x512 : 0 < S260x512.numel
  bitsLt_bf16_f32 : FTy.bits .bf16 < FTy.bits .f32
  shapeCasts_S4096x512_S256x16x512 : S4096x512.ShapeCasts S256x16x512
  reduces_S256x16x512_S256x512 : S256x16x512.Reduces [1] S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S512x512_S512x512_0_0 : ∀ a, (![0, 0] : Fin 2 → Nat) a + S512x512.size a ≤ S512x512.size a
  h_S512x512 : 0 < S512x512.numel
  reduces_S256x512_S256 : S256x512.Reduces [1] S256
  shapeCasts_S256_S256x1 : S256.ShapeCasts S256x1
  broadcasts_S256x1_S256x512 : S256x1.Broadcasts S256x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  shapeCasts_S256x256_S256x1x256 : S256x256.ShapeCasts S256x1x256
  shapeCasts_S256x1x256_S256x1x256 : S256x1x256.ShapeCasts S256x1x256
  broadcasts_S256x1x256_S256x16x256 : S256x1x256.Broadcasts S256x16x256
  inb_S256x16x256_S256x16x256_0_0_0 : ∀ a, (![0, 0, 0] : Fin 3 → Nat) a + S256x16x256.size a ≤ S256x16x256.size a
  h_S256x16x256 : 0 < S256x16x256.numel
  dot_S4096x260_S260x512_S4096x512_1_0_0_1_n_n_wf : DotDims.WF S4096x260 S260x512 S4096x512 [1] [0] [0] [1] [] []
  dot_S256x512_S512x512_S256x512_1_0_0_1_n_n_wf : DotDims.WF S256x512 S512x512 S256x512 [1] [0] [0] [1] [] []
  dot_S256x512_S512x256_S256x256_1_0_0_1_n_n_wf : DotDims.WF S256x512 S512x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16x260.size a ≤ S4096x16x260.size a
  hwx0_0 : ∀ i : grid0.Coords, EltTy.bits .f32 = 32 ∨ (Rect.block (s := S4096x16x260) S256x16x260.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S260x512.size a ≤ S260x512.size a
  hwx0_1 : ∀ i : grid0.Coords, EltTy.bits .f32 = 32 ∨ (Rect.block (s := S260x512) S260x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x16x256.size a ≤ S4096x16x256.size a
  hwx0_9 : ∀ i : grid0.Coords, EltTy.bits .f32 = 32 ∨ (Rect.block (s := S4096x16x256) S256x16x256.size (cc0_transform_9 i) (hinb0_9 i)).WholeWords (EltTy.packing .f32)

variable [Facts₀]

def dot_S4096x260_S260x512_S4096x512_1_0_0_1_n_n : DotDims S4096x260 S260x512 S4096x512 where
  lhsContracting := [1]
  rhsContracting := [0]
  lhsNonContracting := [0]
  rhsNonContracting := [1]
  lhsBatch := []
  rhsBatch := []
  wf := dot_S4096x260_S260x512_S4096x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.ofSpec (Memref.whole main_v2) S256x16x260.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S260x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S256x16x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x16x256 : Shape := ⟨3, ![4096, 16, 256]⟩
abbrev S4096 : Shape := ⟨1, ![4096]⟩
abbrev S260x512 : Shape := ⟨2, ![260, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S4096x1 : Shape := ⟨2, ![4096, 1]⟩
abbrev S1x64 : Shape := ⟨2, ![1, 64]⟩
abbrev S4096x64 : Shape := ⟨2, ![4096, 64]⟩
abbrev S4096x16x4 : Shape := ⟨3, ![4096, 16, 4]⟩
abbrev S4096x16x260 : Shape := ⟨3, ![4096, 16, 260]⟩
abbrev S4096x16x512 : Shape := ⟨3, ![4096, 16, 512]⟩
abbrev S_ : Shape := ⟨0, ![]⟩
abbrev S4096x512 : Shape := ⟨2, ![4096, 512]⟩
abbrev S4096x1x512 : Shape := ⟨3, ![4096, 1, 512]⟩
abbrev S1x1x512 : Shape := ⟨3, ![1, 1, 512]⟩
abbrev S4096x16 : Shape := ⟨2, ![4096, 16]⟩
abbrev S4096x16x1 : Shape := ⟨3, ![4096, 16, 1]⟩
abbrev S4096x256 : Shape := ⟨2, ![4096, 256]⟩
abbrev S4096x1x256 : Shape := ⟨3, ![4096, 1, 256]⟩
abbrev S1x1x256 : Shape := ⟨3, ![1, 1, 256]⟩

abbrev nBuf : Space → Nat
  | .hbm => 86
  | .vmem => 0
  | .smem => 0
  | _ => 0

abbrev bufTy : (tb : Table) → Fin (tcTables nBuf tb) → BufTy
  | .hbm, ⟨0, _⟩ => ⟨S4096x16x256, .f32⟩
  | .hbm, ⟨1, _⟩ => ⟨S4096, .i32⟩
  | .hbm, ⟨2, _⟩ => ⟨S260x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S512, .f32⟩
  | .hbm, ⟨9, _⟩ => ⟨S512, .f32⟩
  | .hbm, ⟨10, _⟩ => ⟨S4096x1, .i32⟩
  | .hbm, ⟨11, _⟩ => ⟨S1x64, .i32⟩
  | .hbm, ⟨12, _⟩ => ⟨S4096x64, .i32⟩
  | .hbm, ⟨13, _⟩ => ⟨S4096x64, .i32⟩
  | .hbm, ⟨14, _⟩ => ⟨S4096x64, .i1⟩
  | .hbm, ⟨15, _⟩ => ⟨S4096x64, .f32⟩
  | .hbm, ⟨16, _⟩ => ⟨S4096x16x4, .f32⟩
  | .hbm, ⟨17, _⟩ => ⟨S4096x16x260, .f32⟩
  | .hbm, ⟨18, _⟩ => ⟨S4096x16x512, .f32⟩
  | .hbm, ⟨19, _⟩ => ⟨S_, .f32⟩
  | .hbm, ⟨20, _⟩ => ⟨S4096x512, .f32⟩
  | .hbm, ⟨21, _⟩ => ⟨S4096x1x512, .f32⟩
  | .hbm, ⟨22, _⟩ => ⟨S_, .f32⟩
  | .hbm, ⟨23, _⟩ => ⟨S4096x1x512, .f32⟩
  | .hbm, ⟨24, _⟩ => ⟨S4096x1x512, .f32⟩
  | .hbm, ⟨25, _⟩ => ⟨S4096x16x512, .f32⟩
  | .hbm, ⟨26, _⟩ => ⟨S1x1x512, .f32⟩
  | .hbm, ⟨27, _⟩ => ⟨S4096x16x512, .f32⟩
  | .hbm, ⟨28, _⟩ => ⟨S4096x16x512, .f32⟩
  | .hbm, ⟨29, _⟩ => ⟨S_, .f32⟩
  | .hbm, ⟨30, _⟩ => ⟨S4096x16x512, .f32⟩
  | .hbm, ⟨31, _⟩ => ⟨S4096x16x512, .f32⟩
  | .hbm, ⟨32, _⟩ => ⟨S4096x16x512, .f32⟩
  | .hbm, ⟨33, _⟩ => ⟨S_, .f32⟩
  | .hbm, ⟨34, _⟩ => ⟨S4096x512, .f32⟩
  | .hbm, ⟨35, _⟩ => ⟨S4096x1x512, .f32⟩
  | .hbm, ⟨36, _⟩ => ⟨S_, .f32⟩
  | .hbm, ⟨37, _⟩ => ⟨S4096x1x512, .f32⟩
  | .hbm, ⟨38, _⟩ => ⟨S4096x1x512, .f32⟩
  | .hbm, ⟨39, _⟩ => ⟨S4096x16x512, .f32⟩
  | .hbm, ⟨40, _⟩ => ⟨S1x1x512, .f32⟩
  | .hbm, ⟨41, _⟩ => ⟨S4096x16x512, .f32⟩
  | .hbm, ⟨42, _⟩ => ⟨S4096x16x512, .f32⟩
  | .hbm, ⟨43, _⟩ => ⟨S_, .f32⟩
  | .hbm, ⟨44, _⟩ => ⟨S4096x16, .f32⟩
  | .hbm, ⟨45, _⟩ => ⟨S4096x16x1, .f32⟩
  | .hbm, ⟨46, _⟩ => ⟨S_, .f32⟩
  | .hbm, ⟨47, _⟩ => ⟨S4096x16x1, .f32⟩
  | .hbm, ⟨48, _⟩ => ⟨S4096x16x1, .f32⟩
  | .hbm, ⟨49, _⟩ => ⟨S4096x16x512, .f32⟩
  | .hbm, ⟨50, _⟩ => ⟨S4096x16x512, .f32⟩
  | .hbm, ⟨51, _⟩ => ⟨S4096x16x512, .f32⟩
  | .hbm, ⟨52, _⟩ => ⟨S_, .f32⟩
  | .hbm, ⟨53, _⟩ => ⟨S4096x16, .f32⟩
  | .hbm, ⟨54, _⟩ => ⟨S4096x16x1, .f32⟩
  | .hbm, ⟨55, _⟩ => ⟨S_, .f32⟩
  | .hbm, ⟨56, _⟩ => ⟨S4096x16x1, .f32⟩
  | .hbm, ⟨57, _⟩ => ⟨S4096x16x1, .f32⟩
  | .hbm, ⟨58, _⟩ => ⟨S4096x16x512, .f32⟩
  | .hbm, ⟨59, _⟩ => ⟨S4096x16x512, .f32⟩
  | .hbm, ⟨60, _⟩ => ⟨S_, .f32⟩
  | .hbm, ⟨61, _⟩ => ⟨S4096x16x1, .f32⟩
  | .hbm, ⟨62, _⟩ => ⟨S4096x16x1, .f32⟩
  | .hbm, ⟨63, _⟩ => ⟨S4096x16x1, .f32⟩
  | .hbm, ⟨64, _⟩ => ⟨S4096x16x512, .f32⟩
  | .hbm, ⟨65, _⟩ => ⟨S4096x16x512, .f32⟩
  | .hbm, ⟨66, _⟩ => ⟨S1x1x512, .f32⟩
  | .hbm, ⟨67, _⟩ => ⟨S4096x16x512, .f32⟩
  | .hbm, ⟨68, _⟩ => ⟨S4096x16x512, .f32⟩
  | .hbm, ⟨69, _⟩ => ⟨S1x1x512, .f32⟩
  | .hbm, ⟨70, _⟩ => ⟨S4096x16x512, .f32⟩
  | .hbm, ⟨71, _⟩ => ⟨S4096x16x512, .f32⟩
  | .hbm, ⟨72, _⟩ => ⟨S_, .f32⟩
  | .hbm, ⟨73, _⟩ => ⟨S4096x16x512, .f32⟩
  | .hbm, ⟨74, _⟩ => ⟨S4096x16x512, .f32⟩
  | .hbm, ⟨75, _⟩ => ⟨S4096x16x256, .f32⟩
  | .hbm, ⟨76, _⟩ => ⟨S_, .f32⟩
  | .hbm, ⟨77, _⟩ => ⟨S4096x256, .f32⟩
  | .hbm, ⟨78, _⟩ => ⟨S4096x1x256, .f32⟩
  | .hbm, ⟨79, _⟩ => ⟨S_, .f32⟩
  | .hbm, ⟨80, _⟩ => ⟨S4096x1x256, .f32⟩
  | .hbm, ⟨81, _⟩ => ⟨S4096x1x256, .f32⟩
  | .hbm, ⟨82, _⟩ => ⟨S4096x16x256, .f32⟩
  | .hbm, ⟨83, _⟩ => ⟨S1x1x256, .f32⟩
  | .hbm, ⟨84, _⟩ => ⟨S4096x16x256, .f32⟩
  | .hbm, ⟨85, _⟩ => ⟨S4096x16x256, .f32⟩
  | _, _ => ⟨S4096x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_cst : Ref sig .tc := ⟨.hbm, 29, rfl⟩
abbrev main_call1_v0 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_7 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call2_cst : Ref sig .tc := ⟨.hbm, 72, rfl⟩
abbrev main_call2_v0 : Ref sig .tc := ⟨.hbm, 73, rfl⟩
abbrev main_v46 : Ref sig .tc := ⟨.hbm, 74, rfl⟩
abbrev main_v47 : Ref sig .tc := ⟨.hbm, 75, rfl⟩
abbrev main_cst_8 : Ref sig .tc := ⟨.hbm, 76, rfl⟩
abbrev main_v48 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  bcast_S1x64_S4096x64_0_1 : S1x64.BroadcastsInDim S4096x64 (![0, 1] : Fin 2 → Fin S4096x64.rank)
  shapeCasts_S4096x64_S4096x16x4 : S4096x64.ShapeCasts S4096x16x4
  concatenates_S4096x16x256_S4096x16x4_S4096x16x260_d2 : Shape.Concatenates [S4096x16x256, S4096x16x4] S4096x16x260 2
  reducesTo_S4096x16x512_S4096x512_d1 : S4096x16x512.ReducesTo [1] S4096x512
  h_S_ : 0 < S_.numel
  bcast_S4096x512_S4096x1x512_0_2 : S4096x512.BroadcastsInDim S4096x1x512 (![0, 2] : Fin 2 → Fin S4096x1x512.rank)
  bcast_S_S4096x1x512 : S_.BroadcastsInDim S4096x1x512 (![] : Fin 0 → Fin S4096x1x512.rank)
  bcast_S4096x1x512_S4096x16x512_0_1_2 : S4096x1x512.BroadcastsInDim S4096x16x512 (![0, 1, 2] : Fin 3 → Fin S4096x16x512.rank)
  bcast_S512_S1x1x512_2 : S512.BroadcastsInDim S1x1x512 (![2] : Fin 1 → Fin S1x1x512.rank)
  bcast_S1x1x512_S4096x16x512_0_1_2 : S1x1x512.BroadcastsInDim S4096x16x512 (![0, 1, 2] : Fin 3 → Fin S4096x16x512.rank)
  bcast_S_S4096x16x512 : S_.BroadcastsInDim S4096x16x512 (![] : Fin 0 → Fin S4096x16x512.rank)
  reducesTo_S4096x16x512_S4096x16_d2 : S4096x16x512.ReducesTo [2] S4096x16
  bcast_S4096x16_S4096x16x1_0_1 : S4096x16.BroadcastsInDim S4096x16x1 (![0, 1] : Fin 2 → Fin S4096x16x1.rank)
  bcast_S_S4096x16x1 : S_.BroadcastsInDim S4096x16x1 (![] : Fin 0 → Fin S4096x16x1.rank)
  bcast_S4096x16x1_S4096x16x512_0_1_2 : S4096x16x1.BroadcastsInDim S4096x16x512 (![0, 1, 2] : Fin 3 → Fin S4096x16x512.rank)
  reducesTo_S4096x16x256_S4096x256_d1 : S4096x16x256.ReducesTo [1] S4096x256
  bcast_S4096x256_S4096x1x256_0_2 : S4096x256.BroadcastsInDim S4096x1x256 (![0, 2] : Fin 2 → Fin S4096x1x256.rank)
  bcast_S_S4096x1x256 : S_.BroadcastsInDim S4096x1x256 (![] : Fin 0 → Fin S4096x1x256.rank)
  bcast_S4096x1x256_S4096x16x256_0_1_2 : S4096x1x256.BroadcastsInDim S4096x16x256 (![0, 1, 2] : Fin 3 → Fin S4096x16x256.rank)
  bcast_S256_S1x1x256_2 : S256.BroadcastsInDim S1x1x256 (![2] : Fin 1 → Fin S1x1x256.rank)
  bcast_S1x1x256_S4096x16x256_0_1_2 : S1x1x256.BroadcastsInDim S4096x16x256 (![0, 1, 2] : Fin 3 → Fin S4096x16x256.rank)
  dot_S4096x16x260_S260x512_S4096x16x512_2_0_01_1_n_n_wf : DotDims.WF S4096x16x260 S260x512 S4096x16x512 [2] [0] [0, 1] [1] [] []
  dot_S4096x16x512_S512x512_S4096x16x512_2_0_01_1_n_n_wf : DotDims.WF S4096x16x512 S512x512 S4096x16x512 [2] [0] [0, 1] [1] [] []
  dot_S4096x16x512_S512x256_S4096x16x256_2_0_01_1_n_n_wf : DotDims.WF S4096x16x512 S512x256 S4096x16x256 [2] [0] [0, 1] [1] [] []

variable [Facts₀]

def dot_S4096x16x260_S260x512_S4096x16x512_2_0_01_1_n_n : DotDims S4096x16x260 S260x512 S4096x16x512 where
  lhsContracting := [2]
  rhsContracting := [0]
  lhsNonContracting := [0, 1]
  rhsNonContracting := [1]
  lhsBatch := []
  rhsBatch := []
  wf := dot_S4096x16x260_S260x512_S4096x16x512_2_0_01_1_n_n_wf
def dot_S4096x16x512_S512x512_S4096x16x512_2_0_01_1_n_n : DotDims S4096x16x512 S512x512 S4096x16x512 where
  lhsContracting := [2]
  rhsContracting := [0]
  lhsNonContracting := [0, 1]
  rhsNonContracting := [1]
  lhsBatch := []
  rhsBatch := []
  wf := dot_S4096x16x512_S512x512_S4096x16x512_2_0_01_1_n_n_wf
def dot_S4096x16x512_S512x256_S4096x16x256_2_0_01_1_n_n : DotDims S4096x16x512 S512x256 S4096x16x256 where
  lhsContracting := [2]
  rhsContracting := [0]
  lhsNonContracting := [0, 1]
  rhsNonContracting := [1]
  lhsBatch := []
  rhsBatch := []
  wf := dot_S4096x16x512_S512x256_S4096x16x256_2_0_01_1_n_n_wf

class Facts : Prop extends Facts₀ where

variable [Facts]
-- ==== Proof.Spec.lean ====
/-
  The function both programs compute, written once for ONE batch element over the extended reals.

  A batch element is a graph of 16 nodes with 260 features each (256 state features and a 4-wide one-hot
  slice of the action). A graph-convolution layer with the block adjacency ones(16,16)/16 is "apply the
  weights to every node, average over the 16 nodes, give every node that average, add the bias". After
  the first layer all 16 nodes of a graph therefore carry the same row, so the second and third layers
  see 16 equal rows: applying the weights to each and averaging them gives back the one row's image,
  because (v + … + v) / 16 = v on the extended reals (sixteen summands; at the infinities too, since
  division by the real 16 is multiplication by 1/16). That law, `mean16_const`, is all the algebra that
  separates "evaluate layers 2 and 3 once per graph" from "evaluate them at every node and average".

  The layers: `hidden1` (weights, node average, bias, relu), `affine` (weights and bias of one row),
  `hidden2` (layer normalisation over the 512 features with its affine map, then relu), and `net`, their
  composition: the 256 outputs of a graph, which every one of its 16 nodes receives.
-/
import Idealize.ShloMosaic.PureOps.Ideal
import Idealize.ShloMosaic.PureOps.Ideal.Laws

noncomputable section

open scoped BigOperators

namespace Cert.Gcn

open Idealize.ShloMosaic

/-- Layer 1 of a graph with node rows `x`: every node's row through `W`, the average over the 16 nodes
    (the sum divided by the constant 16.0), the bias, and relu. -/
def hidden1 (x : Fin 16 → Fin 260 → EReal) (W : Fin 260 → Fin 512 → EReal) (b : Fin 512 → EReal) (k : Fin 512) : EReal :=
  max (Ideal.div (∑ o : Fin 16, ∑ d : Fin 260, x o d * W d k) (Ideal.ofBits .f32 0x41800000#32) + b k)
    (Ideal.ofBits .f32 0x00000000#32)

/-- One row through a weight matrix, plus the bias. -/
def affine {n m : ℕ} (h : Fin n → EReal) (W : Fin n → Fin m → EReal) (b : Fin m → EReal) (k : Fin m) : EReal :=
  (∑ j : Fin n, h j * W j k) + b k

/-- The mean of a row of 512 entries: the sum divided by the constant 512.0. -/
def mean512 (s : Fin 512 → EReal) : EReal :=
  Ideal.div (∑ k : Fin 512, s k) (Ideal.ofBits .f32 0x44000000#32)

/-- A row minus its mean. -/
def centred (s : Fin 512 → EReal) (k : Fin 512) : EReal := s k - mean512 s

/-- The mean of the squared deviations. -/
def variance (s : Fin 512 → EReal) : EReal := mean512 fun k => centred s k * centred s k

/-- Layer normalisation of the row `s` (deviation times the reciprocal root of variance plus the constant
    1e-5 as f32), scaled by `g`, shifted by `β`, then relu. -/
def hidden2 (s g β : Fin 512 → EReal) (k : Fin 512) : EReal :=
  max (centred s k * Ideal.rsqrt (variance s + Ideal.ofBits .f32 0x3727C5AC#32) * g k + β k)
    (Ideal.ofBits .f32 0x00000000#32)

/-- The three layers of one graph: its 256 outputs. -/
def net (x : Fin 16 → Fin 260 → EReal) (W1 : Fin 260 → Fin 512 → EReal) (b1 : Fin 512 → EReal)
    (W2 : Fin 512 → Fin 512 → EReal) (b2 g β : Fin 512 → EReal) (W3 : Fin 512 → Fin 256 → EReal)
    (b3 : Fin 256 → EReal) (j : Fin 256) : EReal :=
  affine (hidden2 (affine (hidden1 x W1 b1) W2 b2) g β) W3 b3 j

/-- The f32 word 0x41800000 denotes the real 16. -/
theorem ofBits_sixteen : Ideal.ofBits .f32 0x41800000#32 = ((16 : ℝ) : EReal) := by
  simp [Ideal.ofBits, Ideal.ieee, -EReal.coe_mul]; norm_num

/-- Sixteen copies of one extended real, summed and divided by 16.0, give it back: division by the real
    16 is multiplication by 1/16 on every extended real, and 16 · (1/16) = 1. -/
theorem mean16_const (v : EReal) : Ideal.div (∑ _o : Fin 16, v) (Ideal.ofBits .f32 0x41800000#32) = v := by
  rw [ofBits_sixteen, Ideal.div_coe (by norm_num), Finset.sum_const, Finset.card_univ, Fintype.card_fin,
    EReal.nsmul_eq_mul, mul_comm _ v, mul_assoc]
  have h : ((16 : ℕ) : EReal) * ((1 / 16 : ℝ) : EReal) = 1 := by
    rw [← EReal.coe_natCast, ← EReal.coe_mul]; norm_num
  rw [h, mul_one]

/-- The same for a host sum that starts from the zero word, of sixteen terms known to be equal. -/
theorem mean16_rows (f : Fin 16 → EReal) (v : EReal) (h : ∀ o, f o = v) :
    Ideal.div (Ideal.ofBits .f32 0x00000000#32 + ∑ o : Fin 16, f o) (Ideal.ofBits .f32 0x41800000#32) = v := by
  rw [Ideal.ofBits_zero_f32, zero_add, Finset.sum_congr rfl fun o _ => h o, mean16_const]

end Cert.Gcn

end
-- ==== Proof.LibIdealAt.lean ====
/-
  Vector operations of a kernel body read at an index, at the extended reals, in the form "if the operands
  read A and B there, the result reads A + B": one lemma per operation, so that the value of a composed
  expression at an index is assembled along the expression's own tree.

  Pointwise operations read the operands at the same index. A matrix product into the zero accumulator reads
  a row of the left operand against a column of the right one. A sum over the middle axis of a rank-3 vector,
  or over the last axis of a rank-2 one, is the finite sum over that coordinate. The layout operations read:
  [a, b, c] viewed as [a·b, c] and back (row p·b + o is node o of graph p), [a] viewed as a column [a, 1], a
  column spread over b columns, [a, c] viewed as [a, 1, c], and that spread over b copies of the middle axis.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.IdealAt

open Idealize.ShloMosaic Idealize.ShloMosaic.ValueIdx

variable {s : Shape} {φ : FTy}

/-! ## Pointwise operations -/

theorem addf_at {a b : FVec Ideal s φ} {i : s.Idx} {A B : EReal} (ha : a i = A) (hb : b i = B) :
    addf a b i = A + B := by subst ha hb; rfl
theorem subf_at {a b : FVec Ideal s φ} {i : s.Idx} {A B : EReal} (ha : a i = A) (hb : b i = B) :
    subf a b i = A - B := by subst ha hb; rfl
theorem mulf_at {a b : FVec Ideal s φ} {i : s.Idx} {A B : EReal} (ha : a i = A) (hb : b i = B) :
    mulf a b i = A * B := by subst ha hb; rfl
theorem divf_at {a b : FVec Ideal s φ} {i : s.Idx} {A B : EReal} (ha : a i = A) (hb : b i = B) :
    divf a b i = Ideal.div A B := by subst ha hb; rfl
theorem maximumf_at {a b : FVec Ideal s φ} {i : s.Idx} {A B : EReal} (ha : a i = A) (hb : b i = B) :
    maximumf a b i = max A B := by subst ha hb; rfl
theorem rsqrt_at {a : FVec Ideal s φ} {i : s.Idx} {A : EReal} (ha : a i = A) :
    rsqrt a i = Ideal.rsqrt A := by subst ha; rfl
/-- A change of float format is the identity on extended reals. -/
theorem truncf_at {ψ : FTy} {a : FVec Ideal s φ} {h : ψ.bits < φ.bits} {i : s.Idx} {A : EReal} (ha : a i = A) :
    (truncf ψ a h : FVec Ideal s ψ) i = A := by subst ha; rfl
/-- A splat of a scalar constant reads the extended real its word denotes. -/
theorem splat_at (b : BitVec 32) (i : s.Idx) :
    broadcast s (Scalar.ofBits (F := Ideal) .f32 b) i = Ideal.ofBits .f32 b := rfl

/-! ## A matrix product into the zero accumulator -/

/-- For dimension numbers that contract the left operand's columns against the right operand's rows (the four
    coordinate facts, which hold of a printed record by computation), the product at (a, c) is the sum over k
    of left (a, k) times right (k, c). -/
theorem matmul_at {m n q : ℕ} {φ₁ φ₂ : FTy} (D : DotDims ⟨2, ![m, n]⟩ ⟨2, ![n, q]⟩ ⟨2, ![m, q]⟩)
    (hr : D.contr.rank = 1) (hs : D.contr.size ⟨0, by omega⟩ = n)
    (hl0 : ∀ i c, (D.lhsIdx i c 0).val = (i 0).val) (hl1 : ∀ i c, (D.lhsIdx i c 1).val = (c ⟨0, by omega⟩).val)
    (hr0 : ∀ i c, (D.rhsIdx i c 0).val = (c ⟨0, by omega⟩).val) (hr1 : ∀ i c, (D.rhsIdx i c 1).val = (i 1).val)
    (prec : Option ContractPrecision) {l : FVec Ideal ⟨2, ![m, n]⟩ φ₁} {r : FVec Ideal ⟨2, ![n, q]⟩ φ₂}
    {a : Fin m} {c : Fin q} {L R : Fin n → EReal}
    (hL : ∀ k, l (ix2 a k) = L k) (hR : ∀ k, r (ix2 k c) = R k) :
    matmul D prec l r (constant ⟨2, ![m, q]⟩ .f32 0x00000000#32) (ix2 a c) = ∑ k : Fin n, L k * R k := by
  refine (Ideal.matmul_constant_zero_apply D prec l r (ix2 a c)).trans ?_
  rw [← Equiv.sum_comp (contrEquiv1 D n hr hs).symm]
  refine Finset.sum_congr rfl fun k _ => ?_
  have hk := contrEquiv1_symm_val D n hr hs k
  have el : D.lhsIdx (ix2 a c) ((contrEquiv1 D n hr hs).symm k) = ix2 a k := funext fun x => Fin.ext (by
    match x with
    | ⟨0, _⟩ => exact hl0 _ _
    | ⟨1, _⟩ => exact (hl1 _ _).trans hk)
  have er : D.rhsIdx (ix2 a c) ((contrEquiv1 D n hr hs).symm k) = ix2 k c := funext fun x => Fin.ext (by
    match x with
    | ⟨0, _⟩ => exact (hr0 _ _).trans hk
    | ⟨1, _⟩ => exact hr1 _ _)
  rw [el, er, hL, hR]

/-! ## Sums along one axis -/

/-- The sum over the middle axis of a rank-3 vector, at (p, k), is the sum over o of the vector at (p, o, k). -/
theorem sum_mid_at {a b c : ℕ} {src : FVec Ideal ⟨3, ![a, b, c]⟩ .f32} {acc : BitVec 32}
    {h : (⟨3, ![a, b, c]⟩ : Shape).Reduces [1] ⟨2, ![a, c]⟩} {hφ : FKind.Formats .f32}
    {hacc : acc = FKind.add.neutral .f32 hφ} {p : Fin a} {k : Fin c} {f : Fin b → EReal}
    (hf : ∀ o, src (ix3 p o k) = f o) :
    multiReduction .add [1] ⟨2, ![a, c]⟩ src acc h hφ hacc (ix2 p k) = ∑ o : Fin b, f o := by
  refine (Ideal.multiReduction_add_single src acc h hφ hacc (ix2 p k)).trans ?_
  refine Finset.sum_congr rfl fun o _ => (congrArg src ?_).trans (hf o)
  funext x
  match x with
  | ⟨0, _⟩ => rfl
  | ⟨1, _⟩ => rfl
  | ⟨2, _⟩ => rfl

/-- The sum over the last axis of a rank-2 vector, at p, is the sum over k of the vector at (p, k). -/
theorem sum_last_at {a c : ℕ} {src : FVec Ideal ⟨2, ![a, c]⟩ .f32} {acc : BitVec 32}
    {h : (⟨2, ![a, c]⟩ : Shape).Reduces [1] ⟨1, ![a]⟩} {hφ : FKind.Formats .f32}
    {hacc : acc = FKind.add.neutral .f32 hφ} {p : Fin a} {f : Fin c → EReal}
    (hf : ∀ k, src (ix2 p k) = f k) :
    multiReduction .add [1] ⟨1, ![a]⟩ src acc h hφ hacc (ix1 p) = ∑ k : Fin c, f k := by
  refine (Ideal.multiReduction_add_single src acc h hφ hacc (ix1 p)).trans ?_
  refine Finset.sum_congr rfl fun k _ => (congrArg src ?_).trans (hf k)
  funext x
  match x with
  | ⟨0, _⟩ => rfl
  | ⟨1, _⟩ => rfl

/-! ## Layout operations -/

variable {α : Type}

/-- Row p·b + o of the [n, c] view (n = a·b) of an [a, b, c] vector is its row (p, o). -/
theorem shapeCast_merge_at {a b c n : ℕ} (v : (⟨3, ![a, b, c]⟩ : Shape).Idx → α)
    (h : (⟨3, ![a, b, c]⟩ : Shape).ShapeCasts ⟨2, ![n, c]⟩) (p : Fin a) (o : Fin b) (d : Fin c) (r : Fin n)
    (hr : r.val = p.val * b + o.val) : shapeCast ⟨2, ![n, c]⟩ v h (ix2 r d) = v (ix3 p o d) := by
  refine shapeCast_apply v h (ix2 r d) (ix3 p o d) ?_
  rw [Shape.rowMajor_val_two, Shape.rowMajor_val_three]
  show (p.val * b + o.val) * c + d.val = r.val * c + d.val
  rw [hr]

/-- Row (p, o) of the [a, b, c] view of an [n, c] vector (n = a·b) is its row p·b + o. -/
theorem shapeCast_split_at {a b c n : ℕ} (v : (⟨2, ![n, c]⟩ : Shape).Idx → α)
    (h : (⟨2, ![n, c]⟩ : Shape).ShapeCasts ⟨3, ![a, b, c]⟩) (p : Fin a) (o : Fin b) (d : Fin c) (r : Fin n)
    (hr : r.val = p.val * b + o.val) : shapeCast ⟨3, ![a, b, c]⟩ v h (ix3 p o d) = v (ix2 r d) := by
  refine shapeCast_apply v h (ix3 p o d) (ix2 r d) ?_
  rw [Shape.rowMajor_val_two, Shape.rowMajor_val_three]
  show r.val * c + d.val = (p.val * b + o.val) * c + d.val
  rw [hr]

/-- An [a] vector viewed as a column [a, 1] reads its entry p at (p, 0). -/
theorem shapeCast_col_at {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_two, Shape.rowMajor_val_one]
  show p.val = p.val * 1 + z.val
  have := z.isLt; omega

/-- An [a, c] vector viewed as [a, 1, c] reads (p, j) at (p, 0, j). -/
theorem shapeCast_mid_at {a c : ℕ} (v : (⟨2, ![a, c]⟩ : Shape).Idx → α)
    (h : (⟨2, ![a, c]⟩ : Shape).ShapeCasts ⟨3, ![a, 1, c]⟩) (p : Fin a) (z : Fin 1) (j : Fin c) :
    shapeCast ⟨3, ![a, 1, c]⟩ v h (ix3 p z j) = v (ix2 p j) := by
  refine shapeCast_apply v h (ix3 p z j) (ix2 p j) ?_
  rw [Shape.rowMajor_val_two, Shape.rowMajor_val_three]
  show p.val * c + j.val = (p.val * 1 + z.val) * c + j.val
  have := z.isLt
  have hz : z.val = 0 := by omega
  rw [hz, Nat.mul_one, Nat.add_zero]

/-- A column [a, 1] spread over b columns reads, at (p, k), the column's entry p. -/
theorem broadcastTo_col_at {a b : ℕ} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- An [a, 1, c] vector spread over b copies of its middle axis reads, at (p, o, j), its entry (p, 0, j). -/
theorem broadcastTo_mid_at {a b c : ℕ} (v : (⟨3, ![a, 1, c]⟩ : Shape).Idx → α)
    (h : (⟨3, ![a, 1, c]⟩ : Shape).Broadcasts ⟨3, ![a, b, c]⟩) (p : Fin a) (o : Fin b) (j : Fin c) :
    broadcastTo ⟨3, ![a, b, c]⟩ v h (ix3 p o j) = v (ix3 p (0 : Fin 1) j) := by
  refine broadcastTo_apply v h (ix3 p o j) (ix3 p (0 : Fin 1) j) fun ax => ?_
  match ax with
  | ⟨0, _⟩ =>
    show p.val = if a = 1 then 0 else p.val
    split
    · have := p.isLt; omega
    · rfl
  | ⟨1, _⟩ => rfl
  | ⟨2, _⟩ =>
    show j.val = if c = 1 then 0 else j.val
    split
    · have := j.isLt; omega
    · rfl

end Cert.IdealAt

end
-- ==== Proof.KerNet.lean ====
/-
  The kernel body's stored value, read at an index, is the network of Spec.lean applied to the block's rows.

  A grid point holds 256 graphs: a [256, 16, 260] block of node rows, and the weights whole. The body flattens
  the block to [4096, 260] (row p·16 + o is node o of graph p), multiplies by the first weight matrix, views the
  product as [256, 16, 512] again and averages over the middle axis; from there on it works with ONE row per
  graph: the second product, the layer normalisation along the 512 features, the third product; and at the end
  gives each of the graph's 16 nodes that one row. Each named piece of the body's arithmetic (the generated
  skeleton's payloads) is read here at coordinates, along the tree of its operations.
-/
import proofs.«104289_j18330920419717_1_alg».proof.Proof.Gen.KernelIdeal.Skeleton
import proofs.«104289_j18330920419717_1_alg».proof.Proof.Spec
import proofs.«104289_j18330920419717_1_alg».proof.Proof.LibIdealAt
import Idealize.ShloMosaic.Lib.ValueLayout

noncomputable section

open scoped BigOperators

namespace Cert.Gcn.Ker

open Idealize.ShloMosaic Idealize.ShloMosaic.ValueIdx Cert.KernelIdeal Cert.KernelIdeal.Gen Cert.Gcn Cert.IdealAt

/-! ## The three products' dimension numbers: rows of the left operand against columns of the right -/

theorem d1_l0 (i : S4096x512.Idx) (c : dot_S4096x260_S260x512_S4096x512_1_0_0_1_n_n.contr.Idx) : (dot_S4096x260_S260x512_S4096x512_1_0_0_1_n_n.lhsIdx i c 0).val = (i 0).val := by
  unfold DotDims.lhsIdx
  rw [dif_neg (show ¬(0 : Fin S4096x260.rank) ∈ dot_S4096x260_S260x512_S4096x512_1_0_0_1_n_n.lhsBatch by decide), dif_pos (show (0 : Fin S4096x260.rank) ∈ dot_S4096x260_S260x512_S4096x512_1_0_0_1_n_n.lhsNonContracting by decide)]
  rfl
theorem d1_l1 (i : S4096x512.Idx) (c : dot_S4096x260_S260x512_S4096x512_1_0_0_1_n_n.contr.Idx) : (dot_S4096x260_S260x512_S4096x512_1_0_0_1_n_n.lhsIdx i c 1).val = (c ⟨0, by decide⟩).val :=
  dot_S4096x260_S260x512_S4096x512_1_0_0_1_n_n.lhsIdx_val_of_single rfl i c
theorem d1_r0 (i : S4096x512.Idx) (c : dot_S4096x260_S260x512_S4096x512_1_0_0_1_n_n.contr.Idx) : (dot_S4096x260_S260x512_S4096x512_1_0_0_1_n_n.rhsIdx i c 0).val = (c ⟨0, by decide⟩).val :=
  dot_S4096x260_S260x512_S4096x512_1_0_0_1_n_n.rhsIdx_val_of_single rfl i c
theorem d1_r1 (i : S4096x512.Idx) (c : dot_S4096x260_S260x512_S4096x512_1_0_0_1_n_n.contr.Idx) : (dot_S4096x260_S260x512_S4096x512_1_0_0_1_n_n.rhsIdx i c 1).val = (i 1).val := by
  unfold DotDims.rhsIdx
  rw [dif_neg (show ¬(1 : Fin S260x512.rank) ∈ dot_S4096x260_S260x512_S4096x512_1_0_0_1_n_n.rhsBatch by decide), dif_pos (show (1 : Fin S260x512.rank) ∈ dot_S4096x260_S260x512_S4096x512_1_0_0_1_n_n.rhsNonContracting by decide)]
  rfl

theorem d2_l0 (i : S256x512.Idx) (c : dot_S256x512_S512x512_S256x512_1_0_0_1_n_n.contr.Idx) : (dot_S256x512_S512x512_S256x512_1_0_0_1_n_n.lhsIdx i c 0).val = (i 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
theorem d2_l1 (i : S256x512.Idx) (c : dot_S256x512_S512x512_S256x512_1_0_0_1_n_n.contr.Idx) : (dot_S256x512_S512x512_S256x512_1_0_0_1_n_n.lhsIdx i c 1).val = (c ⟨0, by decide⟩).val :=
  dot_S256x512_S512x512_S256x512_1_0_0_1_n_n.lhsIdx_val_of_single rfl i c
theorem d2_r0 (i : S256x512.Idx) (c : dot_S256x512_S512x512_S256x512_1_0_0_1_n_n.contr.Idx) : (dot_S256x512_S512x512_S256x512_1_0_0_1_n_n.rhsIdx i c 0).val = (c ⟨0, by decide⟩).val :=
  dot_S256x512_S512x512_S256x512_1_0_0_1_n_n.rhsIdx_val_of_single rfl i c
theorem d2_r1 (i : S256x512.Idx) (c : dot_S256x512_S512x512_S256x512_1_0_0_1_n_n.contr.Idx) : (dot_S256x512_S512x512_S256x512_1_0_0_1_n_n.rhsIdx i c 1).val = (i 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl

theorem d3_l0 (i : S256x256.Idx) (c : dot_S256x512_S512x256_S256x256_1_0_0_1_n_n.contr.Idx) : (dot_S256x512_S512x256_S256x256_1_0_0_1_n_n.lhsIdx i c 0).val = (i 0).val := by
  unfold DotDims.lhsIdx
  rw [dif_neg (show ¬(0 : Fin S256x512.rank) ∈ dot_S256x512_S512x256_S256x256_1_0_0_1_n_n.lhsBatch by decide), dif_pos (show (0 : Fin S256x512.rank) ∈ dot_S256x512_S512x256_S256x256_1_0_0_1_n_n.lhsNonContracting by decide)]
  rfl
theorem d3_l1 (i : S256x256.Idx) (c : dot_S256x512_S512x256_S256x256_1_0_0_1_n_n.contr.Idx) : (dot_S256x512_S512x256_S256x256_1_0_0_1_n_n.lhsIdx i c 1).val = (c ⟨0, by decide⟩).val :=
  dot_S256x512_S512x256_S256x256_1_0_0_1_n_n.lhsIdx_val_of_single rfl i c
theorem d3_r0 (i : S256x256.Idx) (c : dot_S256x512_S512x256_S256x256_1_0_0_1_n_n.contr.Idx) : (dot_S256x512_S512x256_S256x256_1_0_0_1_n_n.rhsIdx i c 0).val = (c ⟨0, by decide⟩).val :=
  dot_S256x512_S512x256_S256x256_1_0_0_1_n_n.rhsIdx_val_of_single rfl i c
theorem d3_r1 (i : S256x256.Idx) (c : dot_S256x512_S512x256_S256x256_1_0_0_1_n_n.contr.Idx) : (dot_S256x512_S512x256_S256x256_1_0_0_1_n_n.rhsIdx i c 1).val = (i 1).val := by
  unfold DotDims.rhsIdx
  rw [dif_neg (show ¬(1 : Fin S512x256.rank) ∈ dot_S256x512_S512x256_S256x256_1_0_0_1_n_n.rhsBatch by decide), dif_pos (show (1 : Fin S512x256.rank) ∈ dot_S256x512_S512x256_S256x256_1_0_0_1_n_n.rhsNonContracting by decide)]
  rfl

/-! ## The pieces of the body -/

/-- Node o of graph p is row p·16 + o of the flattened block. -/
def row (p : Fin 256) (o : Fin 16) : Fin 4096 := ⟨p.val * 16 + o.val, by have := p.isLt; have := o.isLt; omega⟩

/-- Graph p of the block after layer 2's weights and bias: the network's first two stages of the block's rows. -/
def pre2 (v0 : Vec Ideal S256x16x260 .f32) (v3 : Vec Ideal S260x512 .f32) (v11 : Vec Ideal S1x512 .f32)
    (v17 : Vec Ideal S512x512 .f32) (v21 : Vec Ideal S1x512 .f32) (p : Fin 256) : Fin 512 → EReal :=
  affine (hidden1 (fun o d => v0 (ix3 p o d)) (fun d k => v3 (ix2 d k)) (fun k => v11 (ix2 (0 : Fin 1) k)))
    (fun j k => v17 (ix2 j k)) (fun k => v21 (ix2 (0 : Fin 1) k))

/-- A [1, n] block spread over the rows, behind the body's identity cast. -/
theorem bias_at {a n : ℕ} (v : (⟨2, ![1, n]⟩ : Shape).Idx → EReal) (h : (⟨2, ![1, n]⟩ : Shape).ShapeCasts ⟨2, ![1, n]⟩)
    (h' : (⟨2, ![1, n]⟩ : Shape).Broadcasts ⟨2, ![a, n]⟩) (p : Fin a) (k : Fin n) :
    broadcastTo ⟨2, ![a, n]⟩ (shapeCast ⟨2, ![1, n]⟩ v h) h' (ix2 p k) = v (ix2 (0 : Fin 1) k) :=
  (broadcastTo_1b_ab_apply _ h' p k).trans (congrFun (shapeCast_self v h) _)

/-- The second layer's pre-normalisation row of graph p, at feature k. -/
theorem pay2_at (v0 : Vec Ideal S256x16x260 .f32) (v3 : Vec Ideal S260x512 .f32) (v11 : Vec Ideal S1x512 .f32)
    (v17 : Vec Ideal S512x512 .f32) (v21 : Vec Ideal S1x512 .f32) (p : Fin 256) (k : Fin 512) :
    k0_pay2 (F := Ideal) v0 v3 v11 v17 v21 (ix2 p k) = pre2 v0 v3 v11 v17 v21 p k := by
  unfold k0_pay2 pre2 affine
  refine addf_at (matmul_at dot_S256x512_S512x512_S256x512_1_0_0_1_n_n rfl rfl d2_l0 d2_l1 d2_r0 d2_r1 none
    (fun j => truncf_at ?_) (fun j => truncf_at rfl)) (bias_at v21 _ _ p k)
  unfold hidden1
  refine maximumf_at (addf_at (divf_at (sum_mid_at fun o => ?_) (splat_at _ _)) (bias_at v11 _ _ p j)) (splat_at _ _)
  refine (shapeCast_split_at _ _ p o j (row p o) rfl).trans ?_
  refine matmul_at dot_S4096x260_S260x512_S4096x512_1_0_0_1_n_n rfl rfl d1_l0 d1_l1 d1_r0 d1_r1 none
    (fun d => truncf_at ?_) (fun d => truncf_at rfl)
  refine (shapeCast_merge_at _ _ p o d (row p o) rfl).trans ?_
  exact congrFun (shapeCast_self v0 _) _

/-- The row's mean, on the unit axis. -/
theorem pay3_at (v0 : Vec Ideal S256x16x260 .f32) (v3 : Vec Ideal S260x512 .f32) (v11 : Vec Ideal S1x512 .f32)
    (v17 : Vec Ideal S512x512 .f32) (v21 : Vec Ideal S1x512 .f32) (p : Fin 256) (z : Fin 1) :
    k0_pay3 (F := Ideal) v0 v3 v11 v17 v21 (ix2 p z) = mean512 (pre2 v0 v3 v11 v17 v21 p) := by
  unfold k0_pay3 mean512
  refine divf_at ((shapeCast_col_at _ _ p z).trans ?_) (splat_at _ _)
  exact sum_last_at fun k => pay2_at v0 v3 v11 v17 v21 p k

/-- The deviation from the mean. -/
theorem pay5_at (v0 : Vec Ideal S256x16x260 .f32) (v3 : Vec Ideal S260x512 .f32) (v11 : Vec Ideal S1x512 .f32)
    (v17 : Vec Ideal S512x512 .f32) (v21 : Vec Ideal S1x512 .f32) (p : Fin 256) (k : Fin 512) :
    k0_pay5 (F := Ideal) v0 v3 v11 v17 v21 (ix2 p k) = centred (pre2 v0 v3 v11 v17 v21 p) k := by
  unfold k0_pay5 centred
  exact subf_at (pay2_at v0 v3 v11 v17 v21 p k) ((broadcastTo_col_at _ _ p k).trans (pay3_at v0 v3 v11 v17 v21 p 0))

/-- The variance, on the unit axis. -/
theorem pay4_at (v0 : Vec Ideal S256x16x260 .f32) (v3 : Vec Ideal S260x512 .f32) (v11 : Vec Ideal S1x512 .f32)
    (v17 : Vec Ideal S512x512 .f32) (v21 : Vec Ideal S1x512 .f32) (p : Fin 256) (z : Fin 1) :
    k0_pay4 (F := Ideal) v0 v3 v11 v17 v21 (ix2 p z) = variance (pre2 v0 v3 v11 v17 v21 p) := by
  unfold k0_pay4 variance mean512
  refine divf_at ((shapeCast_col_at _ _ p z).trans ?_) (splat_at _ _)
  refine sum_last_at fun k => ?_
  have hd : subf (k0_pay2 (F := Ideal) v0 v3 v11 v17 v21) (broadcastTo S256x512 (k0_pay3 (F := Ideal) v0 v3 v11 v17 v21)
      broadcasts_S256x1_S256x512) (ix2 p k) = centred (pre2 v0 v3 v11 v17 v21 p) k := by
    unfold centred
    exact subf_at (pay2_at v0 v3 v11 v17 v21 p k) ((broadcastTo_col_at _ _ p k).trans (pay3_at v0 v3 v11 v17 v21 p 0))
  exact mulf_at hd hd

/-- The normalisation, relu and third layer, from the variance column `v35` and the deviations `v37` of the graphs:
    every node o of graph p receives the graph's one output row. -/
theorem pay1_at (v35 : FVec Ideal S256x1 .f32) (v37 : FVec Ideal S256x512 .f32) (e : Ideal .f32)
    (v43 v47 : Vec Ideal S1x512 .f32) (v53 : Vec Ideal S512x256 .f32) (v57 : Vec Ideal S1x256 .f32)
    (p : Fin 256) (o : Fin 16) (j : Fin 256) {var : EReal} {dev : Fin 512 → EReal}
    (h35 : v35 (ix2 p (0 : Fin 1)) = var) (h37 : ∀ k, v37 (ix2 p k) = dev k) :
    k0_pay1 (F := Ideal) v35 v37 e v43 v47 v53 v57 (ix3 p o j)
      = affine (fun k => max (dev k * Ideal.rsqrt (var + e) * v43 (ix2 (0 : Fin 1) k) + v47 (ix2 (0 : Fin 1) k))
          (Ideal.ofBits .f32 0x00000000#32)) (fun k j => v53 (ix2 k j)) (fun j => v57 (ix2 (0 : Fin 1) j)) j := by
  unfold k0_pay1 affine
  refine (broadcastTo_mid_at _ _ p o j).trans ?_
  refine (congrFun (shapeCast_self _ _) _).trans ?_
  refine (shapeCast_mid_at _ _ p 0 j).trans ?_
  refine addf_at (matmul_at dot_S256x512_S512x256_S256x256_1_0_0_1_n_n rfl rfl d3_l0 d3_l1 d3_r0 d3_r1 none
    (fun k => truncf_at ?_) (fun k => truncf_at rfl)) (bias_at v57 _ _ p j)
  refine maximumf_at (addf_at (mulf_at (mulf_at (h37 k) ?_) (bias_at v43 _ _ p k)) (bias_at v47 _ _ p k)) (splat_at _ _)
  exact (broadcastTo_col_at _ _ p k).trans (rsqrt_at (addf_at h35 rfl))

/-- THE BODY'S VALUE: what is stored at (p, o, j) of the output block is the network of graph p's rows, at j. -/
theorem body_at (x0 : Vec Ideal S256x16x260 .f32) (x1 : Vec Ideal S260x512 .f32) (x2 : Vec Ideal S1x512 .f32)
    (x3 : Vec Ideal S512x512 .f32) (x4 : Vec Ideal S1x512 .f32) (x5 : Vec Ideal S512x256 .f32)
    (x6 : Vec Ideal S1x256 .f32) (x7 x8 : Vec Ideal S1x512 .f32) (p : Fin 256) (o : Fin 16) (j : Fin 256) :
    k0_pay1 (F := Ideal) (k0_pay4 x0 x1 x2 x3 x4) (k0_pay5 x0 x1 x2 x3 x4) (Scalar.ofBits .f32 0x3727C5AC#32) x7 x8 x5 x6 (ix3 p o j)
      = net (fun o d => x0 (ix3 p o d)) (fun d k => x1 (ix2 d k)) (fun k => x2 (ix2 (0 : Fin 1) k))
          (fun j k => x3 (ix2 j k)) (fun k => x4 (ix2 (0 : Fin 1) k)) (fun k => x7 (ix2 (0 : Fin 1) k))
          (fun k => x8 (ix2 (0 : Fin 1) k)) (fun k j => x5 (ix2 k j)) (fun j => x6 (ix2 (0 : Fin 1) j)) j :=
  pay1_at _ _ _ x7 x8 x5 x6 p o j (pay4_at x0 x1 x2 x3 x4 p 0) (fun k => pay5_at x0 x1 x2 x3 x4 p k)

end Cert.Gcn.Ker

end
-- ==== Proof.Blocks.lean ====
/-
  From the blocks to the whole output array.

  Grid point t works on graphs 256·t … 256·t + 255: it reads that block of the node rows (every weight whole)
  and writes back the same block of the output. So what point t writes back is the block of ONE function `G` of
  the whole arrays — at (b, o, j) the network of graph b's rows at j —, the 16 blocks tile the 4096 graphs, and the
  output array after the run is `G`.
-/
import proofs.«104289_j18330920419717_1_alg».proof.Proof.Gen.KernelIdeal.Value
import proofs.«104289_j18330920419717_1_alg».proof.Proof.KerNet

set_option maxRecDepth 16384

noncomputable section

open scoped BigOperators

namespace Cert.Gcn.Blocks

open Idealize.ShloMosaic Idealize.ShloMosaic.ValueIdx Idealize.ShloMosaic.TcCoe Idealize.SL.Sem
open Cert.KernelIdeal Cert.KernelIdeal.Gen Cert.Gcn
open Idealize.ShloMosaic.Pipeline (Dat)

variable (m : (ℓ : Loc nD τ sig) → Buf (Elt Ideal) ℓ) (ρ : Dev nD → PrngReg)

/-- The network of graph `b`, at output feature `j`, of whole arrays: node rows `X`, the three weight matrices, and the
    three biases and the normalisation's scale and shift as [1, n] rows. -/
def netOf (X : S4096x16x260.Idx → EReal) (W1 : S260x512.Idx → EReal) (b1 : S1x512.Idx → EReal)
    (W2 : S512x512.Idx → EReal) (b2 : S1x512.Idx → EReal) (W3 : S512x256.Idx → EReal) (b3 : S1x256.Idx → EReal)
    (g β : S1x512.Idx → EReal) (b : Fin 4096) (j : Fin 256) : EReal :=
  net (fun o d => X (ix3 b o d)) (fun d k => W1 (ix2 d k)) (fun k => b1 (ix2 (0 : Fin 1) k))
    (fun j k => W2 (ix2 j k)) (fun k => b2 (ix2 (0 : Fin 1) k)) (fun k => g (ix2 (0 : Fin 1) k))
    (fun k => β (ix2 (0 : Fin 1) k)) (fun k j => W3 (ix2 k j)) (fun j => b3 (ix2 (0 : Fin 1) j)) j

/-- What the output array ends holding, from the arrays as the region finds them: at (b, o, j) graph b's output j. -/
def G (c : Dev nD) : S4096x16x256.Idx → EReal := fun i =>
  netOf (V m c main_v2) (V m c main_arg2) (V m c main_v3) (V m c main_arg4) (V m c main_v4) (V m c main_arg6)
    (V m c main_v5) (V m c main_v6) (V m c main_v7) (i 0) (i 2)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the 16 grid points: the node rows' and the output's block index is the point along
    the graph axis, and every weight's block index is zero. -/
theorem idx_facts : ∀ t : Fin cfg0.N, win0_0.index t (0 : Fin 3) = t.val
    ∧ win0_0.index t (1 : Fin 3) = 0
    ∧ win0_0.index t (2 : Fin 3) = 0
    ∧ win0_9.index t (0 : Fin 3) = t.val
    ∧ win0_9.index t (1 : Fin 3) = 0
    ∧ win0_9.index t (2 : Fin 3) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0 :=
  (by decide +kernel : ∀ t : Fin grid0.N, _)

theorem t_lt (t : Fin cfg0.N) : t.val < 16 := lt_of_lt_of_eq t.isLt N_0

/-- Graph p of grid point t is graph 256·t + p of the batch. -/
def graph (t : Fin cfg0.N) (p : Fin 256) : Fin 4096 := ⟨t.val * 256 + p.val, by have := t_lt t; have := p.isLt; omega⟩

/-- The node rows' block at point t holds the rows of the point's graphs. -/
theorem blk0 (c : Dev nD) (t : Fin cfg0.N) (p : Fin 256) (o : Fin 16) (d : Fin 260) :
    iblk m c 0 t (ix3 p o d) = V m c main_v2 (ix3 (graph t p) o d) := by
  show V m c main_v2 (((cfg0.win 0).blk t).view.emb (ix3 p o d)) = V m c main_v2 (ix3 (graph t p) o d)
  refine congrArg (V m c main_v2) (funext fun a => Fin.ext ?_)
  obtain ⟨e0, e1, e2, -⟩ := idx_facts t
  match a with
  | ⟨0, _⟩ => show win0_0.index t (0 : Fin 3) * 256 + 1 * p.val = t.val * 256 + p.val; rw [e0]; omega
  | ⟨1, _⟩ => show win0_0.index t (1 : Fin 3) * 16 + 1 * o.val = o.val; rw [e1]; omega
  | ⟨2, _⟩ => show win0_0.index t (2 : Fin 3) * 260 + 1 * d.val = d.val; rw [e2]; omega

/-- The output's block at point t sits at the point's graphs. -/
theorem emb9 (t : Fin cfg0.N) (p : Fin 256) (o : Fin 16) (j : Fin 256) :
    ((cfg0.win 9).blk t).view.emb (ix3 p o j) = ix3 (graph t p) o j := by
  refine funext fun a => Fin.ext ?_
  obtain ⟨-, -, -, e0, e1, e2, -⟩ := idx_facts t
  match a with
  | ⟨0, _⟩ => show win0_9.index t (0 : Fin 3) * 256 + 1 * p.val = t.val * 256 + p.val; rw [e0]; omega
  | ⟨1, _⟩ => show win0_9.index t (1 : Fin 3) * 16 + 1 * o.val = o.val; rw [e1]; omega
  | ⟨2, _⟩ => show win0_9.index t (2 : Fin 3) * 256 + 1 * j.val = j.val; rw [e2]; omega

/-! Every weight's block is the whole array, at every point. -/

theorem blk1 (c : Dev nD) (t : Fin cfg0.N) (r : Fin 260) (k : Fin 512) :
    iblk m c 1 t (ix2 r k) = V m c main_arg2 (ix2 r k) := by
  show V m c main_arg2 (((cfg0.win 1).blk t).view.emb (ix2 r k)) = V m c main_arg2 (ix2 r k)
  refine congrArg (V m c main_arg2) (funext fun a => Fin.ext ?_)
  have e0 : win0_1.index t (0 : Fin 2) = 0 := (idx_facts t).2.2.2.2.2.2.1
  have e1 : win0_1.index t (1 : Fin 2) = 0 := (idx_facts t).2.2.2.2.2.2.2.1
  match a with
  | ⟨0, _⟩ => show win0_1.index t (0 : Fin 2) * 260 + 1 * r.val = r.val; rw [e0]; omega
  | ⟨1, _⟩ => show win0_1.index t (1 : Fin 2) * 512 + 1 * k.val = k.val; rw [e1]; omega

theorem blk2 (c : Dev nD) (t : Fin cfg0.N) (r : Fin 1) (k : Fin 512) :
    iblk m c 2 t (ix2 r k) = V m c main_v3 (ix2 r k) := by
  show V m c main_v3 (((cfg0.win 2).blk t).view.emb (ix2 r k)) = V m c main_v3 (ix2 r k)
  refine congrArg (V m c main_v3) (funext fun a => Fin.ext ?_)
  have e0 : win0_2.index t (0 : Fin 2) = 0 := (idx_facts t).2.2.2.2.2.2.2.2.1
  have e1 : win0_2.index t (1 : Fin 2) = 0 := (idx_facts t).2.2.2.2.2.2.2.2.2.1
  match a with
  | ⟨0, _⟩ => show win0_2.index t (0 : Fin 2) * 1 + 1 * r.val = r.val; rw [e0]; omega
  | ⟨1, _⟩ => show win0_2.index t (1 : Fin 2) * 512 + 1 * k.val = k.val; rw [e1]; omega

theorem blk3 (c : Dev nD) (t : Fin cfg0.N) (r : Fin 512) (k : Fin 512) :
    iblk m c 3 t (ix2 r k) = V m c main_arg4 (ix2 r k) := by
  show V m c main_arg4 (((cfg0.win 3).blk t).view.emb (ix2 r k)) = V m c main_arg4 (ix2 r k)
  refine congrArg (V m c main_arg4) (funext fun a => Fin.ext ?_)
  have e0 : win0_3.index t (0 : Fin 2) = 0 := (idx_facts t).2.2.2.2.2.2.2.2.2.2.1
  have e1 : win0_3.index t (1 : Fin 2) = 0 := (idx_facts t).2.2.2.2.2.2.2.2.2.2.2.1
  match a with
  | ⟨0, _⟩ => show win0_3.index t (0 : Fin 2) * 512 + 1 * r.val = r.val; rw [e0]; omega
  | ⟨1, _⟩ => show win0_3.index t (1 : Fin 2) * 512 + 1 * k.val = k.val; rw [e1]; omega

theorem blk4 (c : Dev nD) (t : Fin cfg0.N) (r : Fin 1) (k : Fin 512) :
    iblk m c 4 t (ix2 r k) = V m c main_v4 (ix2 r k) := by
  show V m c main_v4 (((cfg0.win 4).blk t).view.emb (ix2 r k)) = V m c main_v4 (ix2 r k)
  refine congrArg (V m c main_v4) (funext fun a => Fin.ext ?_)
  have e0 : win0_4.index t (0 : Fin 2) = 0 := (idx_facts t).2.2.2.2.2.2.2.2.2.2.2.2.1
  have e1 : win0_4.index t (1 : Fin 2) = 0 := (idx_facts t).2.2.2.2.2.2.2.2.2.2.2.2.2.1
  match a with
  | ⟨0, _⟩ => show win0_4.index t (0 : Fin 2) * 1 + 1 * r.val = r.val; rw [e0]; omega
  | ⟨1, _⟩ => show win0_4.index t (1 : Fin 2) * 512 + 1 * k.val = k.val; rw [e1]; omega

theorem blk5 (c : Dev nD) (t : Fin cfg0.N) (r : Fin 512) (k : Fin 256) :
    iblk m c 5 t (ix2 r k) = V m c main_arg6 (ix2 r k) := by
  show V m c main_arg6 (((cfg0.win 5).blk t).view.emb (ix2 r k)) = V m c main_arg6 (ix2 r k)
  refine congrArg (V m c main_arg6) (funext fun a => Fin.ext ?_)
  have e0 : win0_5.index t (0 : Fin 2) = 0 := (idx_facts t).2.2.2.2.2.2.2.2.2.2.2.2.2.2.1
  have e1 : win0_5.index t (1 : Fin 2) = 0 := (idx_facts t).2.2.2.2.2.2.2.2.2.2.2.2.2.2.2.1
  match a with
  | ⟨0, _⟩ => show win0_5.index t (0 : Fin 2) * 512 + 1 * r.val = r.val; rw [e0]; omega
  | ⟨1, _⟩ => show win0_5.index t (1 : Fin 2) * 256 + 1 * k.val = k.val; rw [e1]; omega

theorem blk6 (c : Dev nD) (t : Fin cfg0.N) (r : Fin 1) (k : Fin 256) :
    iblk m c 6 t (ix2 r k) = V m c main_v5 (ix2 r k) := by
  show V m c main_v5 (((cfg0.win 6).blk t).view.emb (ix2 r k)) = V m c main_v5 (ix2 r k)
  refine congrArg (V m c main_v5) (funext fun a => Fin.ext ?_)
  have e0 : win0_6.index t (0 : Fin 2) = 0 := (idx_facts t).2.2.2.2.2.2.2.2.2.2.2.2.2.2.2.2.1
  have e1 : win0_6.index t (1 : Fin 2) = 0 := (idx_facts t).2.2.2.2.2.2.2.2.2.2.2.2.2.2.2.2.2.1
  match a with
  | ⟨0, _⟩ => show win0_6.index t (0 : Fin 2) * 1 + 1 * r.val = r.val; rw [e0]; omega
  | ⟨1, _⟩ => show win0_6.index t (1 : Fin 2) * 256 + 1 * k.val = k.val; rw [e1]; omega

theorem blk7 (c : Dev nD) (t : Fin cfg0.N) (r : Fin 1) (k : Fin 512) :
    iblk m c 7 t (ix2 r k) = V m c main_v6 (ix2 r k) := by
  show V m c main_v6 (((cfg0.win 7).blk t).view.emb (ix2 r k)) = V m c main_v6 (ix2 r k)
  refine congrArg (V m c main_v6) (funext fun a => Fin.ext ?_)
  have e0 : win0_7.index t (0 : Fin 2) = 0 := (idx_facts t).2.2.2.2.2.2.2.2.2.2.2.2.2.2.2.2.2.2.1
  have e1 : win0_7.index t (1 : Fin 2) = 0 := (idx_facts t).2.2.2.2.2.2.2.2.2.2.2.2.2.2.2.2.2.2.2.1
  match a with
  | ⟨0, _⟩ => show win0_7.index t (0 : Fin 2) * 1 + 1 * r.val = r.val; rw [e0]; omega
  | ⟨1, _⟩ => show win0_7.index t (1 : Fin 2) * 512 + 1 * k.val = k.val; rw [e1]; omega

theorem blk8 (c : Dev nD) (t : Fin cfg0.N) (r : Fin 1) (k : Fin 512) :
    iblk m c 8 t (ix2 r k) = V m c main_v7 (ix2 r k) := by
  show V m c main_v7 (((cfg0.win 8).blk t).view.emb (ix2 r k)) = V m c main_v7 (ix2 r k)
  refine congrArg (V m c main_v7) (funext fun a => Fin.ext ?_)
  have e0 : win0_8.index t (0 : Fin 2) = 0 := (idx_facts t).2.2.2.2.2.2.2.2.2.2.2.2.2.2.2.2.2.2.2.2.1
  have e1 : win0_8.index t (1 : Fin 2) = 0 := (idx_facts t).2.2.2.2.2.2.2.2.2.2.2.2.2.2.2.2.2.2.2.2.2
  match a with
  | ⟨0, _⟩ => show win0_8.index t (0 : Fin 2) * 1 + 1 * r.val = r.val; rw [e0]; omega
  | ⟨1, _⟩ => show win0_8.index t (1 : Fin 2) * 512 + 1 * k.val = k.val; rw [e1]; omega

/-- The body's result at point t, entry by entry, is `G` at the entry's place in the array. -/
theorem out_blk (c : Dev nD) (t : Fin cfg0.N) (y : S256x16x256.Idx) :
    out0_9 (iblk m c 0 t) (iblk m c 1 t) (iblk m c 2 t) (iblk m c 3 t) (iblk m c 4 t) (iblk m c 5 t) (iblk m c 6 t)
      (iblk m c 7 t) (iblk m c 8 t) y = G m c (((cfg0.win 9).blk t).view.emb y) := by
  obtain ⟨p, o, j, rfl⟩ : ∃ (p : Fin 256) (o : Fin 16) (j : Fin 256), y = ix3 p o j := ⟨y 0, y 1, y 2, eq_ix3 y⟩
  unfold out0_9
  rw [View.canon_unit_zero hz3, emb9 t p o j]
  simp only [View.ld_unit_zero (S := S256x16x260) hz3, View.ld_unit_zero (S := S260x512) hz2,
    View.ld_unit_zero (S := S1x512) hz2, View.ld_unit_zero (S := S512x512) hz2,
    View.ld_unit_zero (S := S512x256) hz2, View.ld_unit_zero (S := S1x256) hz2]
  refine (Ker.body_at (iblk m c 0 t) (iblk m c 1 t) (iblk m c 2 t) (iblk m c 3 t) (iblk m c 4 t) (iblk m c 5 t)
    (iblk m c 6 t) (iblk m c 7 t) (iblk m c 8 t) p o j).trans ?_
  show _ = netOf (V m c main_v2) (V m c main_arg2) (V m c main_v3) (V m c main_arg4) (V m c main_v4) (V m c main_arg6)
    (V m c main_v5) (V m c main_v6) (V m c main_v7) (graph t p) j
  unfold netOf
  simp only [blk0 m c t, blk1 m c t, blk2 m c t, blk3 m c t, blk4 m c t, blk5 m c t, blk6 m c t, blk7 m c t, blk8 m c t]

/-- WHAT POINT t WRITES BACK is block t of `G`. -/
theorem flushed_eq (c : Dev nD) (t : Fin cfg0.N) :
    (dats m 0 c).flushed 9 t = ((cfg0.win 9).blk t).view.read (Elt Ideal) (G m c) := by
  rw [Cert.KernelIdeal.Value.flushed9]
  funext y
  exact out_blk m c t y

/-- An index of the array is in point t's block iff each coordinate is in the block's range on its axis. -/
theorem mem_blk (t : Fin cfg0.N) (i : S4096x16x256.Idx) :
    i ∈ ((cfg0.win 9).blk t).view.set ↔ ∀ a : Fin 3, win0_9.index t a * S256x16x256.size a ≤ (i a).val
      ∧ (i a).val < win0_9.index t a * S256x16x256.size a + S256x16x256.size a := by
  show i ∈ ((View.whole main_v8).slice (win0_9.rect t)).set ↔ _
  rw [View.set_slice_whole, Rect.mem_set_unit]
  exact Iff.rfl

/-- The 16 blocks cover the array: graph b lies in the block of point b / 256. -/
theorem cover (i : S4096x16x256.Idx) :
    ∃ t : Fin cfg0.N, (cfg0.win 9).flush t = true ∧ i ∈ ((cfg0.win 9).blk t).view.set := by
  have h0 : (i 0).val < 4096 := (i 0).isLt
  have h1 : (i 1).val < 16 := (i 1).isLt
  have h2 : (i 2).val < 256 := (i 2).isLt
  have ht : (i 0).val / 256 < cfg0.N := lt_of_lt_of_eq (by omega : (i 0).val / 256 < 16) N_0.symm
  refine ⟨⟨(i 0).val / 256, ht⟩, flush0_9 _, ?_⟩
  rw [mem_blk]
  obtain ⟨-, -, -, e0, e1, e2, -⟩ := idx_facts ⟨(i 0).val / 256, ht⟩
  intro a
  match a with
  | ⟨0, _⟩ =>
    show win0_9.index ⟨(i 0).val / 256, ht⟩ (0 : Fin 3) * 256 ≤ (i 0).val
      ∧ (i 0).val < win0_9.index ⟨(i 0).val / 256, ht⟩ (0 : Fin 3) * 256 + 256
    rw [e0]; show (i 0).val / 256 * 256 ≤ (i 0).val ∧ (i 0).val < (i 0).val / 256 * 256 + 256; omega
  | ⟨1, _⟩ =>
    show win0_9.index ⟨(i 0).val / 256, ht⟩ (1 : Fin 3) * 16 ≤ (i 1).val
      ∧ (i 1).val < win0_9.index ⟨(i 0).val / 256, ht⟩ (1 : Fin 3) * 16 + 16
    rw [e1]; omega
  | ⟨2, _⟩ =>
    show win0_9.index ⟨(i 0).val / 256, ht⟩ (2 : Fin 3) * 256 ≤ (i 2).val
      ∧ (i 2).val < win0_9.index ⟨(i 0).val / 256, ht⟩ (2 : Fin 3) * 256 + 256
    rw [e2]; omega

/-- THE OUTPUT ARRAY after the run is `G`. -/
theorem final (c : Dev nD) : (dats m 0 c).arrAt 9 cfg0.N = G m c :=
  (dats m 0 c).arrAt_eq_of_cover 9 (G m c) (fun t _ => flushed_eq m c t) cover

end Cert.Gcn.Blocks

end
-- ==== Proof.RefNet.lean ====
/-
  The reference program, read at an index, is the network of Spec.lean.

  The reference's result at (b, o, j) is followed back through its operations: three times "product with the
  weights at every node, sum over the 16 nodes, divide by 16.0, give every node the quotient, add the bias",
  with relu after the first, and layer normalisation and relu after the second. Each operation is read at an index
  by its read-at-an-index lemma from the generated module; what is added here is, per layout operation, the
  index it reads at coordinates (b, o, k) written again with coordinates, and per layer the value at (b, o, k).
  After layer 1 the value at node o does not mention o; so in layers 2 and 3 the sum over the 16 nodes is a sum
  of sixteen equal terms, and `mean16_const` gives the term back.
-/
import proofs.«104289_j18330920419717_1_alg».proof.Proof.Gen.ReferenceIdeal.Read
import proofs.«104289_j18330920419717_1_alg».proof.Proof.Spec
import Idealize.ShloMosaic.Lib.ValueIdx

noncomputable section

open scoped BigOperators

namespace Cert.Gcn.Ref

open Idealize.ShloMosaic Idealize.ShloMosaic.ValueIdx Cert.ReferenceIdeal Cert.ReferenceIdeal.Read Cert.Gcn

/-- Two indices of rank 3, 2 or 1 are equal when their coordinates are, and here each coordinate computes. -/
local macro "idx3" : tactic => `(tactic| (funext a; match a with | ⟨0, _⟩ => rfl | ⟨1, _⟩ => rfl | ⟨2, _⟩ => rfl))
local macro "idx2" : tactic => `(tactic| (funext a; match a with | ⟨0, _⟩ => rfl | ⟨1, _⟩ => rfl))
local macro "idx1" : tactic => `(tactic| (funext a; match a with | ⟨0, _⟩ => rfl))

variable (x0 : (⟨S4096x16x256, .f32⟩ : BufTy).Contents (Elt Ideal)) (x1 : (⟨S4096, .i32⟩ : BufTy).Contents (Elt Ideal))
  (x2 : (⟨S260x512, .f32⟩ : BufTy).Contents (Elt Ideal)) (x3 : (⟨S512, .f32⟩ : BufTy).Contents (Elt Ideal))
  (x4 : (⟨S512x512, .f32⟩ : BufTy).Contents (Elt Ideal)) (x5 : (⟨S512, .f32⟩ : BufTy).Contents (Elt Ideal))
  (x6 : (⟨S512x256, .f32⟩ : BufTy).Contents (Elt Ideal)) (x7 : (⟨S256, .f32⟩ : BufTy).Contents (Elt Ideal))
  (x8 x9 : (⟨S512, .f32⟩ : BufTy).Contents (Elt Ideal))

/-! ## Where each layout operation reads, in coordinates -/

-- layer 1: the product contracts the feature axis; the sum runs over the node axis; the quotient is spread
-- back over the nodes; the bias is spread over graphs and nodes
theorem il3 (b : Fin 4096) (o : Fin 16) (h : Fin 512) (k : Fin 260) : lidx_main_v3 (ix3 b o h) k = ix3 b o k := by idx3
theorem ir3 (b : Fin 4096) (o : Fin 16) (h : Fin 512) (k : Fin 260) : ridx_main_v3 (ix3 b o h) k = ix2 k h := by idx2
theorem i4 (b : Fin 4096) (h : Fin 512) (k : Fin 16) : idx_main_v4 (ix2 b h) k = ix3 b k h := by idx3
theorem i5 (b : Fin 4096) (z : Fin 1) (h : Fin 512) : idx_main_v5 (ix3 b z h) = ix2 b h := by idx2
theorem i8 (b : Fin 4096) (o : Fin 16) (h : Fin 512) : idx_main_v8 (ix3 b o h) = ix3 b (0 : Fin 1) h := by idx3
theorem i9 (z z' : Fin 1) (h : Fin 512) : idx_main_v9 (ix3 z z' h) = ix1 h := by idx1
theorem i10 (b : Fin 4096) (o : Fin 16) (h : Fin 512) : idx_main_v10 (ix3 b o h) = ix3 (0 : Fin 1) (0 : Fin 1) h := by idx3
-- layer 2, the same six
theorem il13 (b : Fin 4096) (o : Fin 16) (h k : Fin 512) : lidx_main_v13 (ix3 b o h) k = ix3 b o k := by idx3
theorem ir13 (b : Fin 4096) (o : Fin 16) (h k : Fin 512) : ridx_main_v13 (ix3 b o h) k = ix2 k h := by idx2
theorem i14 (b : Fin 4096) (h : Fin 512) (k : Fin 16) : idx_main_v14 (ix2 b h) k = ix3 b k h := by idx3
theorem i15 (b : Fin 4096) (z : Fin 1) (h : Fin 512) : idx_main_v15 (ix3 b z h) = ix2 b h := by idx2
theorem i18 (b : Fin 4096) (o : Fin 16) (h : Fin 512) : idx_main_v18 (ix3 b o h) = ix3 b (0 : Fin 1) h := by idx3
theorem i19 (z z' : Fin 1) (h : Fin 512) : idx_main_v19 (ix3 z z' h) = ix1 h := by idx1
theorem i20 (b : Fin 4096) (o : Fin 16) (h : Fin 512) : idx_main_v20 (ix3 b o h) = ix3 (0 : Fin 1) (0 : Fin 1) h := by idx3
-- layer normalisation: sums over the feature axis, kept as a unit axis, spread back over the features
theorem i22 (b : Fin 4096) (o : Fin 16) (k : Fin 512) : idx_main_v22 (ix2 b o) k = ix3 b o k := by idx3
theorem i23 (b : Fin 4096) (o : Fin 16) (z : Fin 1) : idx_main_v23 (ix3 b o z) = ix2 b o := by idx2
theorem i26 (b : Fin 4096) (o : Fin 16) (h : Fin 512) : idx_main_v26 (ix3 b o h) = ix3 b o (0 : Fin 1) := by idx3
theorem i29 (b : Fin 4096) (o : Fin 16) (k : Fin 512) : idx_main_v29 (ix2 b o) k = ix3 b o k := by idx3
theorem i30 (b : Fin 4096) (o : Fin 16) (z : Fin 1) : idx_main_v30 (ix3 b o z) = ix2 b o := by idx2
theorem i33 (b : Fin 4096) (o : Fin 16) (h : Fin 512) : idx_main_v33 (ix3 b o h) = ix3 b o (0 : Fin 1) := by idx3
theorem i38 (b : Fin 4096) (o : Fin 16) (h : Fin 512) : idx_main_v38 (ix3 b o h) = ix3 b o (0 : Fin 1) := by idx3
theorem i40 (z z' : Fin 1) (h : Fin 512) : idx_main_v40 (ix3 z z' h) = ix1 h := by idx1
theorem i41 (b : Fin 4096) (o : Fin 16) (h : Fin 512) : idx_main_v41 (ix3 b o h) = ix3 (0 : Fin 1) (0 : Fin 1) h := by idx3
theorem i43 (z z' : Fin 1) (h : Fin 512) : idx_main_v43 (ix3 z z' h) = ix1 h := by idx1
theorem i44 (b : Fin 4096) (o : Fin 16) (h : Fin 512) : idx_main_v44 (ix3 b o h) = ix3 (0 : Fin 1) (0 : Fin 1) h := by idx3
-- layer 3
theorem il47 (b : Fin 4096) (o : Fin 16) (j : Fin 256) (k : Fin 512) : lidx_main_v47 (ix3 b o j) k = ix3 b o k := by idx3
theorem ir47 (b : Fin 4096) (o : Fin 16) (j : Fin 256) (k : Fin 512) : ridx_main_v47 (ix3 b o j) k = ix2 k j := by idx2
theorem i48 (b : Fin 4096) (j : Fin 256) (k : Fin 16) : idx_main_v48 (ix2 b j) k = ix3 b k j := by idx3
theorem i49 (b : Fin 4096) (z : Fin 1) (j : Fin 256) : idx_main_v49 (ix3 b z j) = ix2 b j := by idx2
theorem i52 (b : Fin 4096) (o : Fin 16) (j : Fin 256) : idx_main_v52 (ix3 b o j) = ix3 b (0 : Fin 1) j := by idx3
theorem i53 (z z' : Fin 1) (j : Fin 256) : idx_main_v53 (ix3 z z' j) = ix1 j := by idx1
theorem i54 (b : Fin 4096) (o : Fin 16) (j : Fin 256) : idx_main_v54 (ix3 b o j) = ix3 (0 : Fin 1) (0 : Fin 1) j := by idx3

/-! ## The layers of graph `b` -/

/-- The node rows of graph `b`: the concatenated array (state features, then the action's one-hot slice). -/
def nodes (b : Fin 4096) (o : Fin 16) (d : Fin 260) : EReal := val_main_v2 (F := Ideal) x0 x1 (ix3 b o d)

/-- Graph `b` after layer 1. -/
def h1 (b : Fin 4096) : Fin 512 → EReal :=
  hidden1 (nodes x0 x1 b) (fun d k => x2 (ix2 d k)) (fun k => x3 (ix1 k))

/-- Graph `b` after layer 2's weights and bias, before the normalisation. -/
def s2 (b : Fin 4096) : Fin 512 → EReal :=
  affine (h1 x0 x1 x2 x3 b) (fun j k => x4 (ix2 j k)) (fun k => x5 (ix1 k))

/-- Graph `b` after layer 2. -/
def h2 (b : Fin 4096) : Fin 512 → EReal :=
  hidden2 (s2 x0 x1 x2 x3 x4 x5 b) (fun k => x8 (ix1 k)) (fun k => x9 (ix1 k))

/-- Layer 1 at node `o` of graph `b`: the node average does not depend on `o`. -/
theorem ref_h1 (b : Fin 4096) (o : Fin 16) (k : Fin 512) :
    val_main_v12 (F := Ideal) x0 x1 x2 x3 (ix3 b o k) = h1 x0 x1 x2 x3 b k := by
  unfold h1 hidden1 nodes
  simp only [val_main_v12_apply, val_main_v11_apply, val_main_v8_apply, val_main_v7_apply, val_main_v5_apply,
    val_main_v4_apply, val_main_v3_apply, val_main_cst_apply, val_main_v6_apply, val_main_cst_0_apply,
    val_main_v10_apply, val_main_v9_apply, val_main_call1_v0_apply, val_main_call1_cst_apply,
    i8, i5, i4, il3, ir3, i10, i9,
    Ideal.ofBits_def, Ideal.addf_def, Ideal.maximumf_def, Ideal.hostDivf_def, Ideal.ofBits_zero_f32, zero_add]

/-- Layer 2 before normalisation: the 16 nodes' rows are equal, so their average is the one row's image. -/
theorem ref_s2 (b : Fin 4096) (o : Fin 16) (k : Fin 512) :
    val_main_v21 (F := Ideal) x0 x1 x2 x3 x4 x5 (ix3 b o k) = s2 x0 x1 x2 x3 x4 x5 b k := by
  unfold s2 affine
  simp only [val_main_v21_apply, val_main_v18_apply, val_main_v17_apply, val_main_v15_apply, val_main_v14_apply,
    val_main_v13_apply, val_main_cst_1_apply, val_main_v16_apply, val_main_cst_2_apply, val_main_v20_apply,
    val_main_v19_apply, i18, i15, i14, il13, ir13, i20, i19, ref_h1,
    Ideal.ofBits_def, Ideal.addf_def, Ideal.hostDivf_def, Ideal.ofBits_zero_f32, zero_add, mean16_const]

/-- The row's mean, kept on a unit axis. -/
theorem ref_mean (b : Fin 4096) (o : Fin 16) (z : Fin 1) :
    val_main_v25 (F := Ideal) x0 x1 x2 x3 x4 x5 (ix3 b o z) = mean512 (s2 x0 x1 x2 x3 x4 x5 b) := by
  unfold mean512
  simp only [val_main_v25_apply, val_main_v23_apply, val_main_v22_apply, val_main_cst_3_apply, val_main_v24_apply,
    val_main_cst_4_apply, i23, i22, ref_s2,
    Ideal.ofBits_def, Ideal.hostDivf_def, Ideal.ofBits_zero_f32, zero_add]

/-- The deviation from the mean (the program computes it twice). -/
theorem ref_centred (b : Fin 4096) (o : Fin 16) (k : Fin 512) :
    val_main_v27 (F := Ideal) x0 x1 x2 x3 x4 x5 (ix3 b o k) = centred (s2 x0 x1 x2 x3 x4 x5 b) k := by
  unfold centred
  simp only [val_main_v27_apply, val_main_v26_apply, i26, ref_mean, ref_s2, Ideal.subf_def]

theorem ref_centred' (b : Fin 4096) (o : Fin 16) (k : Fin 512) :
    val_main_v34 (F := Ideal) x0 x1 x2 x3 x4 x5 (ix3 b o k) = centred (s2 x0 x1 x2 x3 x4 x5 b) k := by
  unfold centred
  simp only [val_main_v34_apply, val_main_v33_apply, i33, ref_mean, ref_s2, Ideal.subf_def]

/-- The variance, kept on a unit axis. -/
theorem ref_var (b : Fin 4096) (o : Fin 16) (z : Fin 1) :
    val_main_v32 (F := Ideal) x0 x1 x2 x3 x4 x5 (ix3 b o z) = variance (s2 x0 x1 x2 x3 x4 x5 b) := by
  unfold variance mean512
  simp only [val_main_v32_apply, val_main_v30_apply, val_main_v29_apply, val_main_cst_5_apply, val_main_v31_apply,
    val_main_cst_6_apply, val_main_v28_apply, i30, i29, ref_centred,
    Ideal.ofBits_def, Ideal.hostDivf_def, Ideal.mulf_def, Ideal.ofBits_zero_f32, zero_add]

/-- Layer 2 at node `o` of graph `b`. -/
theorem ref_h2 (b : Fin 4096) (o : Fin 16) (k : Fin 512) :
    val_main_v46 (F := Ideal) x0 x1 x2 x3 x4 x5 x8 x9 (ix3 b o k) = h2 x0 x1 x2 x3 x4 x5 x8 x9 b k := by
  unfold h2 hidden2
  simp only [val_main_v46_apply, val_main_call2_v0_apply, val_main_call2_cst_apply, val_main_v45_apply,
    val_main_v44_apply, val_main_v43_apply, val_main_v42_apply, val_main_v41_apply, val_main_v40_apply,
    val_main_v39_apply, val_main_v38_apply, val_main_v37_apply, val_main_v36_apply, val_main_v35_apply,
    val_main_cst_7_apply, i44, i43, i41, i40, i38, ref_var, ref_centred',
    Ideal.ofBits_def, Ideal.addf_def, Ideal.mulf_def, Ideal.maximumf_def, Ideal.hostUnary_rsqrt_def]

/-- The reference's result at node `o` of graph `b`: the network of the graph's node rows. -/
theorem ref_out (b : Fin 4096) (o : Fin 16) (j : Fin 256) :
    val_main_v55 (F := Ideal) x0 x1 x2 x3 x4 x5 x6 x7 x8 x9 (ix3 b o j)
      = net (nodes x0 x1 b) (fun d k => x2 (ix2 d k)) (fun k => x3 (ix1 k)) (fun j k => x4 (ix2 j k))
          (fun k => x5 (ix1 k)) (fun k => x8 (ix1 k)) (fun k => x9 (ix1 k)) (fun k j => x6 (ix2 k j))
          (fun j => x7 (ix1 j)) j := by
  show _ = affine (h2 x0 x1 x2 x3 x4 x5 x8 x9 b) (fun k j => x6 (ix2 k j)) (fun j => x7 (ix1 j)) j
  unfold affine
  simp only [val_main_v55_apply, val_main_v54_apply, val_main_v53_apply, val_main_v52_apply, val_main_v51_apply,
    val_main_v50_apply, val_main_cst_9_apply, val_main_v49_apply, val_main_v48_apply, val_main_cst_8_apply,
    val_main_v47_apply, i54, i53, i52, i49, i48, il47, ir47, ref_h2,
    Ideal.ofBits_def, Ideal.addf_def, Ideal.hostDivf_def, Ideal.ofBits_zero_f32, zero_add, mean16_const]

end Cert.Gcn.Ref

end
-- ==== Proof.Entry.lean ====
/-
  What the region finds in the arrays the host writes before it, and the two programs' results as one function.

  Before the kernel is launched the host builds the node rows — the action's one-hot code cut into 16 slices of 4
  and appended to the state features — and views each bias, and the normalisation's scale and shift, as a [1, n]
  row. The reference builds the same node rows by the same operations. So the kernel's output array `G` is a
  function of the ten arguments, and it is the reference's result: at (b, o, j) both are the network of graph b's
  node rows at j.
-/
import proofs.«104289_j18330920419717_1_alg».proof.Proof.Blocks
import proofs.«104289_j18330920419717_1_alg».proof.Proof.RefNet
import Idealize.ShloMosaic.Lib.StableHlo.Run

set_option maxRecDepth 16384

noncomputable section

open scoped BigOperators

namespace Cert.Gcn.Entry

open Idealize.ShloMosaic Idealize.ShloMosaic.ValueIdx Idealize.ShloMosaic.TcCoe Idealize.ShloMosaic.StableHlo
open Cert.KernelIdeal Cert.KernelIdeal.Gen Cert.Gcn Cert.Gcn.Blocks

variable (m : (ℓ : Loc nD τ sig) → Buf (Elt Ideal) ℓ)

/-- The region finds the node rows the reference also builds. -/
theorem entry_nodes (c : Dev nD) : (V m c main_v2 : S4096x16x260.Idx → EReal)
    = Cert.ReferenceIdeal.Read.val_main_v2 (F := Ideal) (m ((c : Thread nD τ).loc main_arg0)) (m ((c : Thread nD τ).loc main_arg1)) := by
  dsimp only [V]
  simp only [hostOps0, hostOps0_1, List.flatten_cons, List.flatten_nil, List.append_nil, List.cons_append, List.nil_append]
  after_results
  rfl

/-- The region finds argument 3 as a [1, n] row. -/
theorem entry_v3 (c : Dev nD) : (V m c main_v3 : S1x512.Idx → EReal) = shapeCast S1x512 (m ((c : Thread nD τ).loc main_arg3)) shapeCasts_S512_S1x512 := by
  dsimp only [V]
  simp only [hostOps0, hostOps0_1, List.flatten_cons, List.flatten_nil, List.append_nil, List.cons_append, List.nil_append]
  after_results
  rfl

/-- The region finds argument 5 as a [1, n] row. -/
theorem entry_v4 (c : Dev nD) : (V m c main_v4 : S1x512.Idx → EReal) = shapeCast S1x512 (m ((c : Thread nD τ).loc main_arg5)) shapeCasts_S512_S1x512 := by
  dsimp only [V]
  simp only [hostOps0, hostOps0_1, List.flatten_cons, List.flatten_nil, List.append_nil, List.cons_append, List.nil_append]
  after_results
  rfl

/-- The region finds argument 7 as a [1, n] row. -/
theorem entry_v5 (c : Dev nD) : (V m c main_v5 : S1x256.Idx → EReal) = shapeCast S1x256 (m ((c : Thread nD τ).loc main_arg7)) shapeCasts_S256_S1x256 := by
  dsimp only [V]
  simp only [hostOps0, hostOps0_1, List.flatten_cons, List.flatten_nil, List.append_nil, List.cons_append, List.nil_append]
  after_results
  rfl

/-- The region finds argument 8 as a [1, n] row. -/
theorem entry_v6 (c : Dev nD) : (V m c main_v6 : S1x512.Idx → EReal) = shapeCast S1x512 (m ((c : Thread nD τ).loc main_arg8)) shapeCasts_S512_S1x512 := by
  dsimp only [V]
  simp only [hostOps0, hostOps0_1, List.flatten_cons, List.flatten_nil, List.append_nil, List.cons_append, List.nil_append]
  after_results
  rfl

/-- The region finds argument 9 as a [1, n] row. -/
theorem entry_v7 (c : Dev nD) : (V m c main_v7 : S1x512.Idx → EReal) = shapeCast S1x512 (m ((c : Thread nD τ).loc main_arg9)) shapeCasts_S512_S1x512 := by
  dsimp only [V]
  simp only [hostOps0, hostOps0_1, List.flatten_cons, List.flatten_nil, List.append_nil, List.cons_append, List.nil_append]
  after_results
  rfl

/-- THE TWO RESULTS ARE ONE FUNCTION: the reference's result term of the arguments is the kernel's output array. -/
theorem ref_eq_G (c : Dev nD) :
    Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = G m c := by
  funext i
  obtain ⟨b, o, j, rfl⟩ : ∃ (b : Fin 4096) (o : Fin 16) (j : Fin 256), i = ix3 b o j := ⟨i 0, i 1, i 2, eq_ix3 i⟩
  rw [Ref.ref_out]
  show _ = netOf (V m c main_v2) (V m c main_arg2) (V m c main_v3) (V m c main_arg4) (V m c main_v4) (V m c main_arg6)
    (V m c main_v5) (V m c main_v6) (V m c main_v7) b j
  rw [entry_nodes, entry_v3, entry_v4, entry_v5, entry_v6, entry_v7, V_main_arg2, V_main_arg4, V_main_arg6]
  unfold netOf Ref.nodes
  simp only [shapeCast_a_1a_apply]

end Cert.Gcn.Entry

end
-- ==== Proof.lean ====
/-
  A graph-convolution network of three layers over 4096 graphs of 16 nodes: the kernel against its jnp reference,
  equal as functions of the arguments on the extended reals.

  Each layer's adjacency is the block of ones(16, 16)/16: apply the layer's weights at every node, average over
  the graph's 16 nodes, give every node the average, add the bias. The reference does exactly that three times
  (relu after the first, layer normalisation and relu after the second). The kernel, 256 graphs per grid point,
  does it once — and then keeps ONE row per graph for layers 2 and 3, because after layer 1 a graph's 16 nodes
  carry the same row, and sixteen equal summands divided by 16 give the summand back (Proof/Spec.lean,
  `mean16_const`: true of every extended real, so the precondition's finiteness is never used). The bf16 roundings
  before the kernel's three matrix products are the identity on extended reals, and every constant (16.0, 512.0,
  the f32 nearest 1e-5, zero) is the same word on both sides.

  Proof/Spec.lean states the network of one graph; Proof/RefNet.lean reads the reference's result at an index as
  that network; Proof/KerNet.lean reads the kernel body's stored value at an index as that network of the block's
  rows (over Proof/LibIdealAt.lean, the vector operations read at an index); Proof/Blocks.lean glues the 16 blocks
  into the output array; Proof/Entry.lean reads the arrays the host prepares and equates the two results. Here
  the five claims are assembled: the three frames (the two kernels' generated ones; the reference's is its
  generated run with the result dropped), `preserves` (nothing was rewritten), and `algebraic`.
-/
import proofs.«104289_j18330920419717_1_alg».proof.Defs
import proofs.«104289_j18330920419717_1_alg».proof.Proof.Gen.Kernel
import proofs.«104289_j18330920419717_1_alg».proof.Proof.Gen.Kernel.Skeleton
import proofs.«104289_j18330920419717_1_alg».proof.Proof.Gen.Kernel.Launch
import proofs.«104289_j18330920419717_1_alg».proof.Proof.Gen.Kernel.Points
import proofs.«104289_j18330920419717_1_alg».proof.Proof.Gen.Kernel.Frame
import proofs.«104289_j18330920419717_1_alg».proof.Proof.Gen.KernelIdeal
import proofs.«104289_j18330920419717_1_alg».proof.Proof.Gen.KernelIdeal.Skeleton
import proofs.«104289_j18330920419717_1_alg».proof.Proof.Gen.KernelIdeal.Launch
import proofs.«104289_j18330920419717_1_alg».proof.Proof.Gen.KernelIdeal.Points
import proofs.«104289_j18330920419717_1_alg».proof.Proof.Gen.KernelIdeal.Frame
import proofs.«104289_j18330920419717_1_alg».proof.Proof.Gen.ReferenceIdeal
import proofs.«104289_j18330920419717_1_alg».proof.Proof.Gen.Pre_finite_inputs
import proofs.«104289_j18330920419717_1_alg».proof.Proof.Gen.KernelIdeal.Value
import proofs.«104289_j18330920419717_1_alg».proof.Proof.Gen.ReferenceIdeal.Run
import proofs.«104289_j18330920419717_1_alg».proof.Proof.Gen.ReferenceIdeal.Read
import proofs.«104289_j18330920419717_1_alg».proof.Proof.Entry
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the array that holds, at (b, o, j), the network of graph b's node rows at j: the kernel
    by its blocks (`Blocks.final`), the reference by its run read at an index (`Entry.ref_eq_G`), from arguments
    that agree. -/
theorem algebraic : Cert.algebraic_KernelIdeal_ReferenceIdeal := by
  intro m ρ m' ρ' _ hagree
  refine ⟨fun c => Cert.Gcn.Blocks.G m c, ?_, ?_⟩
  · exact (θ_run Cert.KernelIdeal.defs _ _).mono
      (fun r h c => ⟨(h c).1.trans (Cert.Gcn.Blocks.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v55_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    exact Cert.Gcn.Entry.ref_eq_G m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
